-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S4x100000 : Shape := ⟨2, ![4, 100000]⟩
abbrev S800000 : Shape := ⟨1, ![800000]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S4x100000 : S_.BroadcastsInDim S4x100000 (![] : Fin 0 → Fin S4x100000.rank)
  reducesTo_S4x100000_S_d0_1 : S4x100000.ReducesTo [0, 1] S_
  bcast_S_S800000 : S_.BroadcastsInDim S800000 (![] : Fin 0 → Fin S800000.rank)
  reducesTo_S800000_S_d0 : S800000.ReducesTo [0] S_

variable [Facts]

def fn {F : FTy → Type} [FloatOps F] (main_arg0 : FVec F S100000x64 .f32) (main_arg1 : FVec F S4x100000 .f32) (main_arg2 : FVec F S800000 .f32) (main_arg3 : IVec S100000 32) (main_arg4 : IVec S800000 32) (main_arg5 : IVec S800000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S4x100000 .f32 := Host.absf main_arg1
  let main_cst_0 : FVec F S_ .f32 := constant S_ .f32 0x7F800000#32
  let main_v5 : FVec F S4x100000 .f32 := broadcastInDim S4x100000 ![] bcast_S_S4x100000 main_cst_0
  let main_v6 : IVec S4x100000 1 := cmpf .olt main_v4 main_v5
  let main_c_1 : IVec S_ 1 := constantI S_ 1 1#1
  let main_v7 : IVec S_ 1 := (fun x v => Host.reduce IntOp.andi x v reducesTo_S4x100000_S_d0_1 h_S_) main_v6 main_c_1
  let main_v8 : IVec S_ 1 := andi main_v3 main_v7
  let main_v9 : FVec F S800000 .f32 := Host.absf main_arg2
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  main_v13
-- ==== Kernel.lean ====
abbrev S100000x64 : Shape := ⟨2, ![100000, 64]⟩
abbrev S4x100000 : Shape := ⟨2, ![4, 100000]⟩
abbrev S800000 : Shape := ⟨1, ![800000]⟩
abbrev S100000 : Shape := ⟨1, ![100000]⟩
abbrev S_ : Shape := ⟨0, ![]⟩
abbrev S800000x1 : Shape := ⟨2, ![800000, 1]⟩
abbrev S800000x64 : Shape := ⟨2, ![800000, 64]⟩
abbrev S100000x1 : Shape := ⟨2, ![100000, 1]⟩
abbrev S100000x4 : Shape := ⟨2, ![100000, 4]⟩
abbrev S100000x3 : Shape := ⟨2, ![100000, 3]⟩
abbrev S100000x192 : Shape := ⟨2, ![100000, 192]⟩
abbrev S4000x3 : Shape := ⟨2, ![4000, 3]⟩
abbrev S4000x64 : Shape := ⟨2, ![4000, 64]⟩
abbrev S4000x192 : Shape := ⟨2, ![4000, 192]⟩
abbrev S4000x1 : Shape := ⟨2, ![4000, 1]⟩
abbrev S800000x192 : Shape := ⟨2, ![800000, 192]⟩
abbrev S100000x3x64 : Shape := ⟨3, ![100000, 3, 64]⟩
abbrev S100000x1x64 : Shape := ⟨3, ![100000, 1, 64]⟩
abbrev S100000x4x64 : Shape := ⟨3, ![100000, 4, 64]⟩

abbrev nBuf : Space → Nat
  | .hbm => 53
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S4x100000, .f32⟩
  | .hbm, ⟨2, _⟩ => ⟨S800000, .f32⟩
  | .hbm, ⟨3, _⟩ => ⟨S100000, .i32⟩
  | .hbm, ⟨4, _⟩ => ⟨S800000, .i32⟩
  | .hbm, ⟨5, _⟩ => ⟨S800000, .i32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x64, .f32⟩
  | .hbm, ⟨15, _⟩ => ⟨S800000x1, .f32⟩
  | .hbm, ⟨16, _⟩ => ⟨S800000x64, .f32⟩
  | .hbm, ⟨17, _⟩ => ⟨S800000x64, .f32⟩
  | .hbm, ⟨18, _⟩ => ⟨S_, .f32⟩
  | .hbm, ⟨19, _⟩ => ⟨S100000x64, .f32⟩
  | .hbm, ⟨20, _⟩ => ⟨S800000x1, .i32⟩
  | .hbm, ⟨21, _⟩ => ⟨S100000x64, .f32⟩
  | .hbm, ⟨22, _⟩ => ⟨S_, .i32⟩
  | .hbm, ⟨23, _⟩ => ⟨S100000, .i32⟩
  | .hbm, ⟨24, _⟩ => ⟨S100000, .i1⟩
  | .hbm, ⟨25, _⟩ => ⟨S_, .i32⟩
  | .hbm, ⟨26, _⟩ => ⟨S100000, .i32⟩
  | .hbm, ⟨27, _⟩ => ⟨S100000, .i32⟩
  | .hbm, ⟨28, _⟩ => ⟨S100000, .i32⟩
  | .hbm, ⟨29, _⟩ => ⟨S100000x1, .i32⟩
  | .hbm, ⟨30, _⟩ => ⟨S4x100000, .f32⟩
  | .hbm, ⟨31, _⟩ => ⟨S100000x4, .f32⟩
  | .hbm, ⟨32, _⟩ => ⟨S100000x3, .f32⟩
  | .hbm, ⟨33, _⟩ => ⟨S100000x192, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x192, .f32⟩
  | .hbm, ⟨43, _⟩ => ⟨S800000x1, .f32⟩
  | .hbm, ⟨44, _⟩ => ⟨S800000x192, .f32⟩
  | .hbm, ⟨45, _⟩ => ⟨S800000x192, .f32⟩
  | .hbm, ⟨46, _⟩ => ⟨S_, .f32⟩
  | .hbm, ⟨47, _⟩ => ⟨S100000x192, .f32⟩
  | .hbm, ⟨48, _⟩ => ⟨S800000x1, .i32⟩
  | .hbm, ⟨49, _⟩ => ⟨S100000x192, .f32⟩
  | .hbm, ⟨50, _⟩ => ⟨S100000x3x64, .f32⟩
  | .hbm, ⟨51, _⟩ => ⟨S100000x1x64, .f32⟩
  | .hbm, ⟨52, _⟩ => ⟨S100000x4x64, .f32⟩
  | .local _ .vmem, ⟨0, _⟩ => ⟨S4000x3, .f32⟩
  | .local _ .vmem, ⟨1, _⟩ => ⟨S4000x3, .f32⟩
  | .local _ .vmem, ⟨2, _⟩ => ⟨S4000x64, .f32⟩
  | .local _ .vmem, ⟨3, _⟩ => ⟨S4000x64, .f32⟩
  | .local _ .vmem, ⟨4, _⟩ => ⟨S4000x192, .f32⟩
  | .local _ .vmem, ⟨5, _⟩ => ⟨S4000x192, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_c_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  transposes_S4x100000_S100000x4_1_0 : S4x100000.Transposes [1, 0] S100000x4
  slices_S100000x4_S100000x3_0_0 : S100000x4.Slices ![0, 0] S100000x3
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x3_S4000x1_0_0 : ∀ a, (![0, 0] : Fin 2 → Nat) a + S4000x1.size a ≤ S4000x3.size a
  h_S4000x1 : 0 < S4000x1.numel
  shapeCasts_S4000x1_S4000x1 : S4000x1.ShapeCasts S4000x1
  broadcasts_S4000x1_S4000x64 : S4000x1.Broadcasts S4000x64
  inb_S4000x3_S4000x1_0_1 : ∀ a, (![0, 1] : Fin 2 → Nat) a + S4000x1.size a ≤ S4000x3.size a
  inb_S4000x3_S4000x1_0_2 : ∀ a, (![0, 2] : Fin 2 → Nat) a + S4000x1.size a ≤ S4000x3.size a
  concatenates_S4000x64_S4000x64_S4000x64_S4000x192_d1 : Shape.Concatenates [S4000x64, S4000x64, S4000x64] S4000x192 1
  inb_S4000x192_S4000x192_0_0 : ∀ a, (![0, 0] : Fin 2 → Nat) a + S4000x192.size a ≤ S4000x192.size a
  h_S4000x192 : 0 < S4000x192.numel
  bcast_S800000x1_S800000x192_0_1 : S800000x1.BroadcastsInDim S800000x192 (![0, 1] : Fin 2 → Fin S800000x192.rank)
  bcast_S_S100000x192 : S_.BroadcastsInDim S100000x192 (![] : Fin 0 → Fin S100000x192.rank)
  shapeCasts_S100000x192_S100000x3x64 : S100000x192.ShapeCasts S100000x3x64
  bcast_S100000x64_S100000x1x64_0_2 : S100000x64.BroadcastsInDim S100000x1x64 (![0, 2] : Fin 2 → Fin S100000x1x64.rank)
  concatenates_S100000x3x64_S100000x1x64_S100000x4x64_d1 : Shape.Concatenates [S100000x3x64, S100000x1x64] S100000x4x64 1
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  gather_S4x100000_S100000x1_S4x100000_0_1_n_n_1_1_41_wf : GatherDims.WF S4x100000 S100000x1 S4x100000 [0] [1] [] [1] [] 1 ![4, 1]
  gather_S100000x192_S800000x1_S800000x192_1_0_n_n_0_1_1192_wf : GatherDims.WF S100000x192 S800000x1 S800000x192 [1] [0] [] [0] [] 1 ![1, 192]
  scatter_S100000x192_S800000x1_S800000x192_1_0_0_1_wf : ScatterDims.WF S100000x192 S800000x1 S800000x192 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x3.size a ≤ S100000x3.size a
  hwx0_0 : ∀ i : grid0.Coords, EltTy.bits .f32 = 32 ∨ (Rect.block (s := S100000x3) S4000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x192.size a ≤ S100000x192.size a
  hwx0_2 : ∀ i : grid0.Coords, EltTy.bits .f32 = 32 ∨ (Rect.block (s := S100000x192) S4000x192.size (cc0_transform_2 i) (hinb0_2 i)).WholeWords (EltTy.packing .f32)

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def gather_S4x100000_S100000x1_S4x100000_0_1_n_n_1_1_41 : GatherDims S4x100000 S100000x1 S4x100000 where
  offsetDims := [0]
  collapsedSliceDims := [1]
  operandBatchingDims := []
  startIndicesBatchingDims := []
  startIndexMap := [1]
  indexVectorDim := 1
  sliceSizes := ![4, 1]
  wf := gather_S4x100000_S100000x1_S4x100000_0_1_n_n_1_1_41_wf
def gather_S100000x192_S800000x1_S800000x192_1_0_n_n_0_1_1192 : GatherDims S100000x192 S800000x1 S800000x192 where
  offsetDims := [1]
  collapsedSliceDims := [0]
  operandBatchingDims := []
  startIndicesBatchingDims := []
  startIndexMap := [0]
  indexVectorDim := 1
  sliceSizes := ![1, 192]
  wf := gather_S100000x192_S800000x1_S800000x192_1_0_n_n_0_1_1192_wf
def scatter_S100000x192_S800000x1_S800000x192_1_0_0_1 : ScatterDims S100000x192 S800000x1 S800000x192 where
  updateWindowDims := [1]
  insertedWindowDims := [0]
  scatterDimsToOperandDims := [0]
  indexVectorDim := 1
  wf := scatter_S100000x192_S800000x1_S800000x192_1_0_0_1_wf

abbrev win0_0 : Pipeline.Window sig grid0 :=
  Pipeline.Window.ofSpec (Memref.whole main_v21) S4000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S4000x192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x64 : Shape := ⟨2, ![100000, 64]⟩
abbrev S4x100000 : Shape := ⟨2, ![4, 100000]⟩
abbrev S800000 : Shape := ⟨1, ![800000]⟩
abbrev S100000 : Shape := ⟨1, ![100000]⟩
abbrev S_ : Shape := ⟨0, ![]⟩
abbrev S800000x1 : Shape := ⟨2, ![800000, 1]⟩
abbrev S800000x64 : Shape := ⟨2, ![800000, 64]⟩
abbrev S100000x1 : Shape := ⟨2, ![100000, 1]⟩
abbrev S100000x4 : Shape := ⟨2, ![100000, 4]⟩
abbrev S100000x4x1 : Shape := ⟨3, ![100000, 4, 1]⟩
abbrev S100000x1x64 : Shape := ⟨3, ![100000, 1, 64]⟩
abbrev S100000x4x64 : Shape := ⟨3, ![100000, 4, 64]⟩
abbrev S100000x256 : Shape := ⟨2, ![100000, 256]⟩
abbrev S800000x256 : Shape := ⟨2, ![800000, 256]⟩
abbrev S1 : Shape := ⟨1, ![1]⟩

abbrev nBuf : Space → Nat
  | .hbm => 58
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S4x100000, .f32⟩
  | .hbm, ⟨2, _⟩ => ⟨S800000, .f32⟩
  | .hbm, ⟨3, _⟩ => ⟨S100000, .i32⟩
  | .hbm, ⟨4, _⟩ => ⟨S800000, .i32⟩
  | .hbm, ⟨5, _⟩ => ⟨S800000, .i32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x64, .f32⟩
  | .hbm, ⟨15, _⟩ => ⟨S800000x1, .f32⟩
  | .hbm, ⟨16, _⟩ => ⟨S800000x64, .f32⟩
  | .hbm, ⟨17, _⟩ => ⟨S800000x64, .f32⟩
  | .hbm, ⟨18, _⟩ => ⟨S_, .f32⟩
  | .hbm, ⟨19, _⟩ => ⟨S100000x64, .f32⟩
  | .hbm, ⟨20, _⟩ => ⟨S800000x1, .i32⟩
  | .hbm, ⟨21, _⟩ => ⟨S100000x64, .f32⟩
  | .hbm, ⟨22, _⟩ => ⟨S_, .i32⟩
  | .hbm, ⟨23, _⟩ => ⟨S100000, .i32⟩
  | .hbm, ⟨24, _⟩ => ⟨S100000, .i1⟩
  | .hbm, ⟨25, _⟩ => ⟨S_, .i32⟩
  | .hbm, ⟨26, _⟩ => ⟨S100000, .i32⟩
  | .hbm, ⟨27, _⟩ => ⟨S100000, .i32⟩
  | .hbm, ⟨28, _⟩ => ⟨S100000, .i32⟩
  | .hbm, ⟨29, _⟩ => ⟨S100000x1, .i32⟩
  | .hbm, ⟨30, _⟩ => ⟨S4x100000, .f32⟩
  | .hbm, ⟨31, _⟩ => ⟨S100000x4, .f32⟩
  | .hbm, ⟨32, _⟩ => ⟨S100000x4x1, .f32⟩
  | .hbm, ⟨33, _⟩ => ⟨S100000x1x64, .f32⟩
  | .hbm, ⟨34, _⟩ => ⟨S100000x4x64, .f32⟩
  | .hbm, ⟨35, _⟩ => ⟨S100000x4x64, .f32⟩
  | .hbm, ⟨36, _⟩ => ⟨S100000x4x64, .f32⟩
  | .hbm, ⟨37, _⟩ => ⟨S100000x256, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x256, .f32⟩
  | .hbm, ⟨47, _⟩ => ⟨S800000x1, .f32⟩
  | .hbm, ⟨48, _⟩ => ⟨S800000x256, .f32⟩
  | .hbm, ⟨49, _⟩ => ⟨S800000x256, .f32⟩
  | .hbm, ⟨50, _⟩ => ⟨S_, .f32⟩
  | .hbm, ⟨51, _⟩ => ⟨S100000x256, .f32⟩
  | .hbm, ⟨52, _⟩ => ⟨S800000x1, .i32⟩
  | .hbm, ⟨53, _⟩ => ⟨S100000x256, .f32⟩
  | .hbm, ⟨54, _⟩ => ⟨S100000x4x64, .f32⟩
  | .hbm, ⟨55, _⟩ => ⟨S_, .i32⟩
  | .hbm, ⟨56, _⟩ => ⟨S1, .i32⟩
  | .hbm, ⟨57, _⟩ => ⟨S100000x4x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_3 : Ref sig .tc := ⟨.hbm, 38, rfl⟩
abbrev main_v27 : Ref sig .tc := ⟨.hbm, 39, rfl⟩
abbrev main_v28 : Ref sig .tc := ⟨.hbm, 40, rfl⟩
abbrev main_c_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_6 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  transposes_S4x100000_S100000x4_1_0 : S4x100000.Transposes [1, 0] S100000x4
  bcast_S100000x4_S100000x4x1_0_1 : S100000x4.BroadcastsInDim S100000x4x1 (![0, 1] : Fin 2 → Fin S100000x4x1.rank)
  bcast_S100000x64_S100000x1x64_0_2 : S100000x64.BroadcastsInDim S100000x1x64 (![0, 2] : Fin 2 → Fin S100000x1x64.rank)
  bcast_S100000x4x1_S100000x4x64_0_1_2 : S100000x4x1.BroadcastsInDim S100000x4x64 (![0, 1, 2] : Fin 3 → Fin S100000x4x64.rank)
  bcast_S100000x1x64_S100000x4x64_0_1_2 : S100000x1x64.BroadcastsInDim S100000x4x64 (![0, 1, 2] : Fin 3 → Fin S100000x4x64.rank)
  shapeCasts_S100000x4x64_S100000x256 : S100000x4x64.ShapeCasts S100000x256
  bcast_S800000x1_S800000x256_0_1 : S800000x1.BroadcastsInDim S800000x256 (![0, 1] : Fin 2 → Fin S800000x256.rank)
  bcast_S_S100000x256 : S_.BroadcastsInDim S100000x256 (![] : Fin 0 → Fin S100000x256.rank)
  shapeCasts_S100000x256_S100000x4x64 : S100000x256.ShapeCasts S100000x4x64
  bcast_S_S1 : S_.BroadcastsInDim S1 (![] : Fin 0 → Fin S1.rank)
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  gather_S4x100000_S100000x1_S4x100000_0_1_n_n_1_1_41_wf : GatherDims.WF S4x100000 S100000x1 S4x100000 [0] [1] [] [1] [] 1 ![4, 1]
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  scatter_S100000x4x64_S1_S100000x64_01_1_1_0_wf : ScatterDims.WF S100000x4x64 S1 S100000x64 [0, 1] [1] [1] 0

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def gather_S4x100000_S100000x1_S4x100000_0_1_n_n_1_1_41 : GatherDims S4x100000 S100000x1 S4x100000 where
  offsetDims := [0]
  collapsedSliceDims := [1]
  operandBatchingDims := []
  startIndicesBatchingDims := []
  startIndexMap := [1]
  indexVectorDim := 1
  sliceSizes := ![4, 1]
  wf := gather_S4x100000_S100000x1_S4x100000_0_1_n_n_1_1_41_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def scatter_S100000x4x64_S1_S100000x64_01_1_1_0 : ScatterDims S100000x4x64 S1 S100000x64 where
  updateWindowDims := [0, 1]
  insertedWindowDims := [1]
  scatterDimsToOperandDims := [1]
  indexVectorDim := 0
  wf := scatter_S100000x4x64_S1_S100000x64_01_1_1_0_wf

class Facts : Prop extends Facts₀ where

variable [Facts]
-- ==== Proof.OuterBlock.lean ====
/-
  The region of the kernel: a per-edge outer product.

  The region reads a column array M : [100000, 3] and a feature array X : [100000, 64] in blocks of 4000 rows and
  writes W : [100000, 192], where W[e, 64 r + f] = M[e, r] * X[e, f] for r < 3 and f < 64. One block's body loads
  the three columns of its block of M one by one, spreads each over the 64 lanes, multiplies it with the block of
  X, and places the three products side by side. Block t holds rows 4000 t … 4000 t + 3999 of all three arrays, so
  the 25 blocks tile W and W ends holding the outer product on every row.
-/
import proofs.«158890_j44117904065324_2_alg».proof.Proof.Gen.KernelIdeal.Frame
import Idealize.ShloMosaic.Lib.ValueIdx
import Idealize.ShloMosaic.Lib.Pipeline.Value

set_option maxRecDepth 16384

noncomputable section

namespace Cert.KernelIdeal.Outer

open Idealize.ShloMosaic Idealize.ShloMosaic.TcCoe Idealize.ShloMosaic.ValueIdx Idealize.SL.Sem
open Cert.KernelIdeal Cert.KernelIdeal.Gen
open Idealize.ShloMosaic.Pipeline (Dat)

/-- The outer product of a three-column array and a 64-feature array, flattened along the last axis:
    element (e, c) is column c / 64 of row e times feature c % 64 of row e. -/
def outer (M : S100000x3.Idx → EReal) (X : S100000x64.Idx → EReal) : S100000x192.Idx → EReal :=
  fun j => M (ix2 (j 0) ⟨(j 1).val / 64, by have h : (j 1).val < 192 := (j 1).isLt; show (j 1).val / 64 < 3; omega⟩)
    * X (ix2 (j 0) ⟨(j 1).val % 64, by show (j 1).val % 64 < 64; omega⟩)

/-- One product of the body: a column spread over the lanes times the feature block, at (p, f). -/
theorem piece_apply (x1 : FVec Ideal S4000x64 .f32) (col : FVec Ideal S4000x1 .f32) (p : Fin 4000) (f : Fin 64) :
    mulf (broadcastTo S4000x64 (shapeCast S4000x1 col shapeCasts_S4000x1_S4000x1) broadcasts_S4000x1_S4000x64)
        (shapeCast S4000x64 x1 shapeCasts_S4000x64_S4000x64) (ix2 p f)
      = col (ix2 p ⟨0, Nat.one_pos⟩) * x1 (ix2 p f) := by
  rw [mulf_apply, shapeCast_self, shapeCast_self]
  refine congrArg (· * x1 (ix2 p f)) ?_
  exact broadcastTo_apply col broadcasts_S4000x1_S4000x64 (ix2 p f) (ix2 p ⟨0, Nat.one_pos⟩) (fun a => match a with
    | ⟨0, _⟩ => by show p.val = if (4000 : Nat) = 1 then 0 else p.val; rw [if_neg (by decide)]
    | ⟨1, _⟩ => by show 0 = if (1 : Nat) = 1 then 0 else f.val; rw [if_pos rfl])

/-- The body's stored value at (p, 64 r + f): column r of the block of M at row p times the block of X at (p, f). -/
theorem pay_apply (x1 : FVec Ideal S4000x64 .f32) (c0 c1 c2 : FVec Ideal S4000x1 .f32) (p : Fin 4000) (q : Fin 192) :
    k0_pay1 (F := Ideal) x1 c0 c1 c2 (ix2 p q)
      = (if q.val < 64 then c0 (ix2 p ⟨0, Nat.one_pos⟩) else if q.val < 128 then c1 (ix2 p ⟨0, Nat.one_pos⟩)
          else c2 (ix2 p ⟨0, Nat.one_pos⟩)) * x1 (ix2 p ⟨q.val % 64, Nat.mod_lt _ (by decide)⟩) := by
  have hq : q.val < 192 := q.isLt
  unfold k0_pay1
  by_cases h0 : q.val < 64
  · rw [if_pos h0]
    refine (concatenate_apply_piece (1 : Fin 2) _ _ (ix2 p q)
      0 (by show (0 : ℕ) < 3; omega) S4000x64 _ rfl rfl 0 rfl (ix2 p ⟨q.val % 64, Nat.mod_lt _ (by decide)⟩)
      (fun b hb => match b, hb with
        | ⟨0, _⟩, _ => rfl
        | ⟨1, _⟩, hb => absurd rfl hb)
      (by show 0 + q.val % 64 = q.val; omega)).trans ?_
    exact piece_apply x1 c0 p _
  · rw [if_neg h0]
    by_cases h1 : q.val < 128
    · rw [if_pos h1]
      refine (concatenate_apply_piece (1 : Fin 2) _ _ (ix2 p q)
        1 (by show (1 : ℕ) < 3; omega) S4000x64 _ rfl rfl 64 rfl (ix2 p ⟨q.val % 64, Nat.mod_lt _ (by decide)⟩)
        (fun b hb => match b, hb with
          | ⟨0, _⟩, _ => rfl
          | ⟨1, _⟩, hb => absurd rfl hb)
        (by show 64 + q.val % 64 = q.val; omega)).trans ?_
      exact piece_apply x1 c1 p _
    · rw [if_neg h1]
      refine (concatenate_apply_piece (1 : Fin 2) _ _ (ix2 p q)
        2 (by show (2 : ℕ) < 3; omega) S4000x64 _ rfl rfl 128 rfl (ix2 p ⟨q.val % 64, Nat.mod_lt _ (by decide)⟩)
        (fun b hb => match b, hb with
          | ⟨0, _⟩, _ => rfl
          | ⟨1, _⟩, hb => absurd rfl hb)
        (by show 128 + q.val % 64 = q.val; omega)).trans ?_
      exact piece_apply x1 c2 p _

end Cert.KernelIdeal.Outer

end
-- ==== Proof.OuterArray.lean ====
/-
  The outer-product array after the region.

  Block t of each window is rows 4000 t … 4000 t + 3999 (all columns), for t = 0 … 24. What point t writes back is
  therefore block t of the outer product of the two input arrays as the region finds them; the 25 blocks tile the
  100000 rows, so the output array ends holding the outer product everywhere.
-/
import proofs.«158890_j44117904065324_2_alg».proof.Proof.OuterBlock

set_option maxRecDepth 16384

noncomputable section

namespace Cert.KernelIdeal.Outer

open Idealize.ShloMosaic Idealize.ShloMosaic.TcCoe Idealize.ShloMosaic.ValueIdx Idealize.SL.Sem
open Cert.KernelIdeal Cert.KernelIdeal.Gen
open Idealize.ShloMosaic.Pipeline (Dat)

theorem zero_offsets : (![0, 0] : Fin 2 → Nat) = fun _ => 0 := funext fun a => by fin_cases a <;> rfl

/-- Column k of a [4000, 3] block, loaded as a [4000, 1] column, at row p. -/
theorem col_apply (x0 : Vec Ideal S4000x3 .f32) (k : Nat) (hk : k < 3)
    (inb : ∀ a, (![0, k] : Fin 2 → Nat) a + S4000x1.size a ≤ S4000x3.size a) (p : Fin 4000) :
    View.ld x0 (Rect.unit (s := S4000x3) ![0, k] S4000x1.size inb) (ix2 p ⟨0, Nat.one_pos⟩) = x0 (ix2 p ⟨k, hk⟩) := by
  show x0 _ = x0 _
  refine congrArg x0 (funext fun a => Fin.ext ?_)
  match a with
  | ⟨0, _⟩ => show 0 + 1 * p.val = p.val; omega
  | ⟨1, _⟩ => show k + 1 * 0 = k; omega

/-- The body's stored value on blocks that are rows 4000 b … of two arrays M and X is the same rows of their outer
    product. -/
theorem block_eq (M : S100000x3.Idx → EReal) (X : S100000x64.Idx → EReal) (b : Nat) (hb : b ≤ 24)
    (x0 : Vec Ideal S4000x3 .f32) (x1 : Vec Ideal S4000x64 .f32)
    (h0 : ∀ (p : Fin 4000) (r : Fin 3), x0 (ix2 p r) = M (ix2 ⟨b * 4000 + p.val, by have := p.isLt; omega⟩ r))
    (h1 : ∀ (p : Fin 4000) (f : Fin 64), x1 (ix2 p f) = X (ix2 ⟨b * 4000 + p.val, by have := p.isLt; omega⟩ f))
    (p : Fin 4000) (q : Fin 192) :
    k0_pay1 (F := Ideal) (View.ld x1 r0_0) (View.ld x0 r0_1) (View.ld x0 r0_2) (View.ld x0 r0_3) (ix2 p q)
      = outer M X (ix2 ⟨b * 4000 + p.val, by have := p.isLt; omega⟩ q) := by
  have hq : q.val < 192 := q.isLt
  rw [View.ld_unit_zero (S := S4000x64) zero_offsets, pay_apply, h1]
  unfold outer
  refine congrArg (· * X _) ?_
  by_cases c0 : q.val < 64
  · rw [if_pos c0, col_apply x0 0 (by omega), h0]
    refine congrArg M (congrArg (ix2 _) (Fin.ext ?_))
    show 0 = q.val / 64; omega
  · rw [if_neg c0]
    by_cases c1 : q.val < 128
    · rw [if_pos c1, col_apply x0 1 (by omega), h0]
      refine congrArg M (congrArg (ix2 _) (Fin.ext ?_))
      show 1 = q.val / 64; omega
    · rw [if_neg c1, col_apply x0 2 (by omega), h0]
      refine congrArg M (congrArg (ix2 _) (Fin.ext ?_))
      show 2 = q.val / 64; omega

/-- The printed index maps over the grid: every window's block row index is the point's, its block column index 0. -/
theorem idx_facts : ∀ t : Fin cfg0.N, win0_0.index t (0 : Fin 2) = win0_2.index t (0 : Fin 2)
    ∧ win0_1.index t (0 : Fin 2) = win0_2.index t (0 : Fin 2)
    ∧ win0_0.index t (1 : Fin 2) = 0 ∧ win0_1.index t (1 : Fin 2) = 0 ∧ win0_2.index t (1 : Fin 2) = 0
    ∧ win0_2.index t (0 : Fin 2) ≤ 24 :=
  (by decide +kernel : ∀ t : Fin grid0.N, _)

/-- Every block row is some point's. -/
theorem idx_onto : ∀ q0 : Fin 25, ∃ t : Fin cfg0.N, win0_2.index t = ![q0.val, 0] :=
  (by decide +kernel : ∀ q0 : Fin 25, ∃ t : Fin grid0.N, win0_2.index t = ![q0.val, 0])

/-- What the body leaves at point t, cut to the block, when the input windows' blocks are read off two arrays A0 and
    A1: block t of the outer product of A0 and A1. -/
theorem block_out_eq (A0 : S100000x3.Idx → EReal) (A1 : S100000x64.Idx → EReal) (t : Fin cfg0.N) :
    (cfg0.win 2).cut (grid0.coords t)
        (out0_2 (F := Ideal) (((cfg0.win 0).blk t).view.read (Elt Ideal) A0) (((cfg0.win 1).blk t).view.read (Elt Ideal) A1))
      = ((cfg0.win 2).blk t).view.read (Elt Ideal) (outer A0 A1) := by
  unfold out0_2
  rw [View.canon_unit_zero zero_offsets]
  obtain ⟨e0, e1, e2, e3, e4, e5⟩ := idx_facts t
  funext j
  show k0_pay1 (F := Ideal) (View.ld (((cfg0.win 1).blk t).view.read (Elt Ideal) A1) r0_0)
      (View.ld (((cfg0.win 0).blk t).view.read (Elt Ideal) A0) r0_1) (View.ld (((cfg0.win 0).blk t).view.read (Elt Ideal) A0) r0_2)
      (View.ld (((cfg0.win 0).blk t).view.read (Elt Ideal) A0) r0_3) j
    = outer A0 A1 (((cfg0.win 2).blk t).view.emb j)
  obtain ⟨p, q, rfl⟩ : ∃ (p : Fin 4000) (q : Fin 192), j = ix2 p q := ⟨j 0, j 1, eq_ix2 (n0 := 4000) (n1 := 192) j⟩
  refine (block_eq A0 A1 (win0_2.index t (0 : Fin 2)) e5
    (((cfg0.win 0).blk t).view.read (Elt Ideal) A0) (((cfg0.win 1).blk t).view.read (Elt Ideal) A1) ?_ ?_ p q).trans ?_
  · intro p r
    show A0 (((cfg0.win 0).blk t).view.emb (ix2 p r)) = A0 _
    refine congrArg A0 (funext fun a => Fin.ext ?_)
    match a with
    | ⟨0, _⟩ => show win0_0.index t (0 : Fin 2) * 4000 + 1 * p.val = win0_2.index t (0 : Fin 2) * 4000 + p.val; omega
    | ⟨1, _⟩ => show win0_0.index t (1 : Fin 2) * 3 + 1 * r.val = r.val; omega
  · intro p f
    show A1 (((cfg0.win 1).blk t).view.emb (ix2 p f)) = A1 _
    refine congrArg A1 (funext fun a => Fin.ext ?_)
    match a with
    | ⟨0, _⟩ => show win0_1.index t (0 : Fin 2) * 4000 + 1 * p.val = win0_2.index t (0 : Fin 2) * 4000 + p.val; omega
    | ⟨1, _⟩ => show win0_1.index t (1 : Fin 2) * 64 + 1 * f.val = f.val; omega
  · refine congrArg (outer A0 A1) (funext fun a => Fin.ext ?_)
    match a with
    | ⟨0, _⟩ => show win0_2.index t (0 : Fin 2) * 4000 + p.val = win0_2.index t (0 : Fin 2) * 4000 + 1 * p.val; omega
    | ⟨1, _⟩ => show q.val = win0_2.index t (1 : Fin 2) * 192 + 1 * q.val; omega

variable (m : (ℓ : Loc nD τ sig) → Buf (Elt Ideal) ℓ)

/-- What point t writes back is block t of the outer product of the two input arrays as the region finds them. -/
theorem flushed_eq (c : Dev nD) (t : Fin cfg0.N) :
    (dats m 0 c).flushed 2 t
      = ((cfg0.win 2).blk t).view.read (Elt Ideal)
          (outer (V m c (Pipeline.arrRef spec0 0)) (V m c (Pipeline.arrRef spec0 1))) := by
  show (cfg0.win 2).cut (grid0.coords t) ((dats m 0 c).after 2 t) = _
  rw [after0_2]
  unfold iblk
  exact block_out_eq (V m c (Pipeline.arrRef spec0 0)) (V m c (Pipeline.arrRef spec0 1)) t

/-- An index of the array is in point t's block iff each coordinate is in the block's range on its axis. -/
theorem mem_blk (t : Fin cfg0.N) (i : S100000x192.Idx) :
    i ∈ ((cfg0.win 2).blk t).view.set ↔ ∀ a : Fin 2, win0_2.index t a * S4000x192.size a ≤ (i a).val
      ∧ (i a).val < win0_2.index t a * S4000x192.size a + S4000x192.size a := by
  show i ∈ ((View.whole main_v22).slice (win0_2.rect t)).set ↔ _
  rw [View.set_slice_whole, Rect.mem_set_unit]
  exact Iff.rfl

/-- Every index is in the block of the point whose block row is the index's row over 4000. -/
theorem cover (i : S100000x192.Idx) :
    ∃ t : Fin cfg0.N, (cfg0.win 2).flush t = true ∧ i ∈ ((cfg0.win 2).blk t).view.set := by
  have hi0 : (i 0).val < 100000 := (i 0).isLt
  have hi1 : (i 1).val < 192 := (i 1).isLt
  obtain ⟨t, ht⟩ := idx_onto ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 192 ≤ (i 1).val ∧ (i 1).val < win0_2.index t (1 : Fin 2) * 192 + 192; omega

/-- The output array after the region is the outer product of the two input arrays as the region finds them. -/
theorem final (c : Dev nD) :
    (dats m 0 c).arrAt 2 cfg0.N = outer (V m c (Pipeline.arrRef spec0 0)) (V m c (Pipeline.arrRef spec0 1)) :=
  (dats m 0 c).arrAt_eq_of_cover 2 (outer (V m c (Pipeline.arrRef spec0 0)) (V m c (Pipeline.arrRef spec0 1)))
    (fun t _ => flushed_eq m c t) cover

end Cert.KernelIdeal.Outer

end
-- ==== Proof.KernelHost.lean ====
/-
  The host side of the kernel's program, as terms.

  Before the region the program computes, from the argument arrays, a feature array H : [100000, 64] (gather the rows
  of x named by the first index array, scale row k by weight k, add row k into the row named by entry k of the second
  index array) and a column array: the first three of the four columns of the transposed gather of the mask array
  by the third index array. The reference program computes the same H and the same four columns by the same
  operations, so the two are stated here as the reference's terms; neither is opened.

  After the region the program reads the region's output W : [100000, 192]: it gathers the rows of W named by the
  second index array (made non-negative by adding 100000 to negative entries), scales row k by weight k, adds row k
  into the row named by entry k of the first index array, recasts [100000, 192] as [100000, 3, 64] and appends x as
  a fourth slot along the middle axis. That chain is tail, a function of W and the four argument arrays it reads.
-/
import proofs.«158890_j44117904065324_2_alg».proof.Proof.Gen.KernelIdeal.Frame
import proofs.«158890_j44117904065324_2_alg».proof.Proof.Gen.ReferenceIdeal.Read
import Idealize.ShloMosaic.Lib.StableHlo.Run
import Idealize.ShloMosaic.PureOps.Ideal

set_option maxRecDepth 16384

noncomputable section

namespace Cert.KernelIdeal.HostValue

open Idealize.ShloMosaic Idealize.ShloMosaic.TcCoe Idealize.SL.Sem Idealize.ShloMosaic.StableHlo
open Cert.KernelIdeal Cert.KernelIdeal.Gen

/-- The second index array with its negative entries moved up by 100000, as the gathers read it. -/
def wrap (x5 : IVec S800000 32) : IVec S800000 32 :=
  select (cmpi .slt x5 (broadcastInDim S800000 ![] bcast_S_S800000 (constantI S_ 32 0#32)))
    (addi x5 (broadcastInDim S800000 ![] bcast_S_S800000 (constantI S_ 32 100000#32))) x5

/-- It is the reference's term for the same array. -/
theorem wrap_eq (x5 : IVec S800000 32) : wrap x5 = Cert.ReferenceIdeal.Read.val_main_v31 (F := Ideal) x5 := by
  unfold wrap Cert.ReferenceIdeal.Read.val_main_v31 Cert.ReferenceIdeal.Read.val_main_v28 Cert.ReferenceIdeal.Read.val_main_v27 Cert.ReferenceIdeal.Read.val_main_c_3 Cert.ReferenceIdeal.Read.val_main_v30 Cert.ReferenceIdeal.Read.val_main_v29 Cert.ReferenceIdeal.Read.val_main_c_4
  rfl

/-- The host operations after the region, as one function of the region's output array and the argument arrays. -/
def tail (W : FVec Ideal S100000x192 .f32) (x0 : FVec Ideal S100000x64 .f32) (x2 : FVec Ideal S800000 .f32)
    (x4 x5 : IVec S800000 32) : FVec Ideal S100000x4x64 .f32 :=
  concatenate S100000x4x64 1
    [⟨S100000x3x64, shapeCast S100000x3x64
        (Host.scatterAdd (F := Ideal) scatter_S100000x192_S800000x1_S800000x192_1_0_0_1
          (broadcastInDim S100000x192 ![] bcast_S_S100000x192 (constant (F := Ideal) S_ .f32 0x00000000#32))
          (broadcastInDim S800000x1 ![0] bcast_S800000_S800000x1_0 x4)
          (mulf (Host.gather gather_S100000x192_S800000x1_S800000x192_1_0_n_n_0_1_1192 W
              (broadcastInDim S800000x1 ![0] bcast_S800000_S800000x1_0 (wrap x5)))
            (broadcastInDim S800000x192 ![0, 1] bcast_S800000x1_S800000x192_0_1
              (broadcastInDim S800000x1 ![0] bcast_S800000_S800000x1_0 x2))))
        shapeCasts_S100000x192_S100000x3x64⟩,
     ⟨S100000x1x64, broadcastInDim S100000x1x64 ![0, 2] bcast_S100000x64_S100000x1x64_0_2 x0⟩]
    concatenates_S100000x3x64_S100000x1x64_S100000x4x64_d1

set_option maxHeartbeats 8000000 in
/-- The lines after the region, run from any buffer contents F, leave the result buffer at tail of what F holds at
    the region's output and at the arguments. -/
theorem after_tail (F : Valuation τ sig (Elt Ideal)) :
    StableHlo.after (hostOps1 (F := Ideal)) F (Proc.devRef .tc main_v38)
      = tail (F (Proc.devRef .tc main_v22)) (F (Proc.devRef .tc main_arg0)) (F (Proc.devRef .tc main_arg2))
          (F (Proc.devRef .tc main_arg4)) (F (Proc.devRef .tc main_arg5)) := by
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  unfold tail wrap
  rfl

set_option maxHeartbeats 1000000 in
/-- The lines before the region, run from any buffer contents F, leave the feature buffer at the reference's
    feature term of what F holds at the arguments. -/
theorem after_feat (F : Valuation τ sig (Elt Ideal)) :
    StableHlo.after (hostOps0 (F := Ideal)) F (Proc.devRef .tc main_v12)
      = Cert.ReferenceIdeal.Read.val_main_v12 (F := Ideal) (F (Proc.devRef .tc main_arg0)) (F (Proc.devRef .tc main_arg2))
          (F (Proc.devRef .tc main_arg4)) (F (Proc.devRef .tc main_arg5)) := by
  after_results_simp
  unfold Cert.ReferenceIdeal.Read.val_main_v12 Cert.ReferenceIdeal.Read.val_main_v10 Cert.ReferenceIdeal.Read.val_main_cst Cert.ReferenceIdeal.Read.val_main_v11 Cert.ReferenceIdeal.Read.val_main_v9 Cert.ReferenceIdeal.Read.val_main_v6 Cert.ReferenceIdeal.Read.val_main_v5 Cert.ReferenceIdeal.Read.val_main_v4 Cert.ReferenceIdeal.Read.val_main_v1 Cert.ReferenceIdeal.Read.val_main_v0 Cert.ReferenceIdeal.Read.val_main_c Cert.ReferenceIdeal.Read.val_main_v3 Cert.ReferenceIdeal.Read.val_main_v2 Cert.ReferenceIdeal.Read.val_main_c_0 Cert.ReferenceIdeal.Read.val_main_v8 Cert.ReferenceIdeal.Read.val_main_v7
  rfl

set_option maxHeartbeats 1000000 in
/-- They leave the column buffer at the first three columns of the reference's transposed mask gather. -/
theorem after_cols (F : Valuation τ sig (Elt Ideal)) :
    StableHlo.after (hostOps0 (F := Ideal)) F (Proc.devRef .tc main_v21)
      = extractStridedSlice S100000x3 ![0, 0]
          (Cert.ReferenceIdeal.Read.val_main_v20 (F := Ideal) (F (Proc.devRef .tc main_arg1)) (F (Proc.devRef .tc main_arg3)))
          slices_S100000x4_S100000x3_0_0 := by
  after_results_simp
  unfold Cert.ReferenceIdeal.Read.val_main_v20 Cert.ReferenceIdeal.Read.val_main_v19 Cert.ReferenceIdeal.Read.val_main_v18 Cert.ReferenceIdeal.Read.val_main_v17 Cert.ReferenceIdeal.Read.val_main_v14 Cert.ReferenceIdeal.Read.val_main_v13 Cert.ReferenceIdeal.Read.val_main_c_1 Cert.ReferenceIdeal.Read.val_main_v16 Cert.ReferenceIdeal.Read.val_main_v15 Cert.ReferenceIdeal.Read.val_main_c_2
  rfl

variable (m : (ℓ : Loc nD τ sig) → Buf (Elt Ideal) ℓ)

/-- The feature array the region finds is the reference's feature term of the arguments. -/
theorem feat_eq (c : Dev nD) :
    V m c (Pipeline.arrRef spec0 1)
      = Cert.ReferenceIdeal.Read.val_main_v12 (F := Ideal) (m ((c.tc : Thread nD τ).loc main_arg0))
          (m ((c.tc : Thread nD τ).loc main_arg2)) (m ((c.tc : Thread nD τ).loc main_arg4))
          (m ((c.tc : Thread nD τ).loc main_arg5)) :=
  (show V m c (Pipeline.arrRef spec0 1) = V m c main_v12 from rfl).trans
    ((show V m c main_v12 = StableHlo.after (hostOps0 (F := Ideal)) (fun b => m (c, b)) (Proc.devRef .tc main_v12) from rfl).trans
      (after_feat (fun b => m (c, b))))

/-- The column array the region finds is the first three columns of the reference's transposed mask gather. -/
theorem cols_eq (c : Dev nD) :
    V m c (Pipeline.arrRef spec0 0)
      = extractStridedSlice S100000x3 ![0, 0]
          (Cert.ReferenceIdeal.Read.val_main_v20 (F := Ideal) (m ((c.tc : Thread nD τ).loc main_arg1))
            (m ((c.tc : Thread nD τ).loc main_arg3))) slices_S100000x4_S100000x3_0_0 :=
  (show V m c (Pipeline.arrRef spec0 0) = V m c main_v21 from rfl).trans
    ((show V m c main_v21 = StableHlo.after (hostOps0 (F := Ideal)) (fun b => m (c, b)) (Proc.devRef .tc main_v21) from rfl).trans
      (after_cols (fun b => m (c, b))))

end Cert.KernelIdeal.HostValue

end
-- ==== Proof.KernelRun.lean ====
/-
  The kernel program's run with its result named.

  The frame run leaves the region's output array holding what the blocks wrote — the outer product of the column
  array and the feature array the region found — and the result buffer holding what the lines after the region
  compute from that array and the arguments, which no line writes.
-/
import proofs.«158890_j44117904065324_2_alg».proof.Proof.OuterArray
import proofs.«158890_j44117904065324_2_alg».proof.Proof.KernelHost

set_option maxRecDepth 16384

noncomputable section

namespace Cert.KernelIdeal.KernelRun

open Idealize.ShloMosaic Idealize.ShloMosaic.TcCoe Idealize.SL.Sem
open Cert.KernelIdeal Cert.KernelIdeal.Gen Cert.KernelIdeal.Outer Cert.KernelIdeal.HostValue

variable (m : (ℓ : Loc nD τ sig) → Buf (Elt Ideal) ℓ) (ρ : Dev nD → PrngReg)

/-- What the lines after the region leave in the result buffer: tail of the outer product and the arguments as launched. -/
theorem tail_eq (c : Dev nD) :
    Pipeline.afterTail₀ cfgs (dats m) 0 (V0 m) [hostOps1] c main_v38
      = tail (outer (V m c (Pipeline.arrRef spec0 0)) (V m c (Pipeline.arrRef spec0 1)))
          (m ((c.tc : Thread nD τ).loc main_arg0)) (m ((c.tc : Thread nD τ).loc main_arg2))
          (m ((c.tc : Thread nD τ).loc main_arg4)) (m ((c.tc : Thread nD τ).loc main_arg5)) := by
  have h22 : Pipeline.withArrays spec0 c (V0 m c) (fun w => (dats m 0 c).arrAt w cfg0.N) (Proc.devRef .tc main_v22)
      = outer (V m c (Pipeline.arrRef spec0 0)) (V m c (Pipeline.arrRef spec0 1)) :=
    (Pipeline.withArrays_arr spec0 launch0.win.arr_inj c (V0 m c) (fun w => (dats m 0 c).arrAt w cfg0.N) 2).trans (final m c)
  have h0 : Pipeline.withArrays spec0 c (V0 m c) (fun w => (dats m 0 c).arrAt w cfg0.N) (Proc.devRef .tc main_arg0)
      = m ((c.tc : Thread nD τ).loc main_arg0) :=
    (Pipeline.withArrays_of_ne spec0 c (V0 m c) _ main_arg0
      (by exact (by decide : ∀ w, Pipeline.arrRef spec0 w ≠ main_arg0))).trans (V_main_arg0 m c)
  have h2 : Pipeline.withArrays spec0 c (V0 m c) (fun w => (dats m 0 c).arrAt w cfg0.N) (Proc.devRef .tc main_arg2)
      = m ((c.tc : Thread nD τ).loc main_arg2) :=
    (Pipeline.withArrays_of_ne spec0 c (V0 m c) _ main_arg2
      (by exact (by decide : ∀ w, Pipeline.arrRef spec0 w ≠ main_arg2))).trans (V_main_arg2 m c)
  have h4 : Pipeline.withArrays spec0 c (V0 m c) (fun w => (dats m 0 c).arrAt w cfg0.N) (Proc.devRef .tc main_arg4)
      = m ((c.tc : Thread nD τ).loc main_arg4) :=
    (Pipeline.withArrays_of_ne spec0 c (V0 m c) _ main_arg4
      (by exact (by decide : ∀ w, Pipeline.arrRef spec0 w ≠ main_arg4))).trans (V_main_arg4 m c)
  have h5 : Pipeline.withArrays spec0 c (V0 m c) (fun w => (dats m 0 c).arrAt w cfg0.N) (Proc.devRef .tc main_arg5)
      = m ((c.tc : Thread nD τ).loc main_arg5) :=
    (Pipeline.withArrays_of_ne spec0 c (V0 m c) _ main_arg5
      (by exact (by decide : ∀ w, Pipeline.arrRef spec0 w ≠ main_arg5))).trans (V_main_arg5 m c)
  unfold Pipeline.afterTail₀
  show StableHlo.after (hostOps1 (F := Ideal))
      (Pipeline.withArrays spec0 c (V0 m c) (fun w => (dats m 0 c).arrAt w cfg0.N)) (Proc.devRef .tc main_v38) = _
  rw [after_tail, h22, h0, h2, h4, h5]

/-- The kernel program runs, its result buffer ends at tail of the outer product the region wrote, and its
    arguments end as launched. -/
theorem run : θ_run defs (onTc (τ := τ) (main (F := Ideal))) ⟨m, fun _ => 0, ρ⟩ (fun r => ∀ c : Dev nD,
      r.2.mem ((c.tc : Thread nD τ).loc main_v38)
        = tail (outer (V m c (Pipeline.arrRef spec0 0)) (V m c (Pipeline.arrRef spec0 1)))
            (m ((c.tc : Thread nD τ).loc main_arg0)) (m ((c.tc : Thread nD τ).loc main_arg2))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v38 (Pipeline.mem_restRefs_of main_v38 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.KernelRun

end
-- ==== Proof.LibScatterSplit.lean ====
/-
  ONE ACCUMULATING SCATTER OF THREE INTERLEAVED ARRAYS IS THREE SCATTERS IN TURN (at the ideal instance).

  An accumulating scatter along rows adds, to element (b, v) of a [B, V] operand, every update element (b, q) of a
  [B, N] update array whose index entry q of an [N, 1] index array, read as a signed integer, is v; an entry outside
  [0, V) lands nowhere. At the ideal instance the elements are extended reals and the result is the operand's element
  plus the sum of the updates landing on it.

  If a long axis of extent 3N interleaves three arrays of extent N (position 3p + k holds entry p of the k-th), the
  sum over the long axis splits, by the bijection (p, k) to 3p + k, into the three sums over p; addition of extended
  reals is commutative and associative, so the one scatter over the long axis equals the three scatters applied one
  after the other, whatever the values and whatever the indices (colliding, negative or out of range included).

  The statements: the coordinate reading of the landing condition (resultIdx?_eq_some_iff for any dimension numbers,
  resultIdx?_rows for a scatter along rows), the scatter read at one element (hostScatterAdd_rows_apply), the
  bijection (interleave3), the split of the row sum (rowSum_interleave3) and the theorem in four forms: general
  extents or the extents 8, 6890, 1048576, 3145728; the three arrays as a family over k or named one by one.
-/
import Idealize.ShloMosaic.Lib.ValueIdx

noncomputable section

open scoped BigOperators

namespace Cert.Lib.ScatterSplit

open Idealize.ShloMosaic Idealize.ShloMosaic.ValueIdx

/-- An update index lands on a result index exactly when, on every operand axis, the result coordinate is the
    start plus the window coordinate. -/
theorem resultIdx?_eq_some_iff {s si u : Shape} (d : ScatterDims s si u) {w : Nat} (j : u.Idx) (idx : IVec si w)
    (i : s.Idx) :
    d.resultIdx? j idx = some i ↔ ∀ a, ((i a).val : Int) = d.start j idx a + d.window j a := by
  unfold ScatterDims.resultIdx?
  split_ifs with h
  · constructor
    · intro heq a
      have := Option.some.inj heq
      subst this
      show ((d.start j idx a + d.window j a).toNat : Int) = _
      exact Int.toNat_of_nonneg (h a).1
    · intro heq
      congr 1
      funext a
      refine Fin.ext ?_
      show (d.start j idx a + d.window j a).toNat = (i a).val
      have := heq a
      omega
  · constructor
    · intro heq
      exact absurd heq (by simp)
    · intro heq
      exfalso
      apply h
      intro a
      have := heq a
      have := (i a).isLt
      omega

/-- A scatter along rows (update window axis 0, inserted operand axis 1, the one start component going to operand
    axis 1, the index vector on axis 1 of an [N, 1] index array): update position (b, q) lands on result element
    (b', v) exactly when b' = b and v is entry q of the index array read as a signed integer. -/
theorem resultIdx?_rows {B V N w : Nat}
    (d : ScatterDims ⟨2, ![B, V]⟩ ⟨2, ![N, 1]⟩ ⟨2, ![B, N]⟩)
    (hu : d.updateWindowDims = [0]) (hi : d.insertedWindowDims = [1])
    (hs : d.scatterDimsToOperandDims = [1]) (hv : d.indexVectorDim = 1)
    (idx : IVec ⟨2, ![N, 1]⟩ w) (j : (⟨2, ![B, N]⟩ : Shape).Idx) (i : (⟨2, ![B, V]⟩ : Shape).Idx) :
    d.resultIdx? j idx = some i ↔
      (i 0).val = (j 0).val ∧ ((i 1).val : Int) = (idx (ix2 (j 1) 0)).toInt := by
  obtain ⟨uw, iw, sd, iv, wf⟩ := d
  simp only at hu hi hs hv
  subst hu hi hs hv
  rw [resultIdx?_eq_some_iff]
  have hs0 : (⟨[0], [1], [1], 1, wf⟩ : ScatterDims ⟨2, ![B, V]⟩ ⟨2, ![N, 1]⟩ ⟨2, ![B, N]⟩).start j idx 0 = 0 := by
    unfold ScatterDims.start
    rw [dif_neg (show (0 : Fin 2) ∉ [1] by decide)]
  have hs1 : (⟨[0], [1], [1], 1, wf⟩ : ScatterDims ⟨2, ![B, V]⟩ ⟨2, ![N, 1]⟩ ⟨2, ![B, N]⟩).start j idx 1
      = (idx (ix2 (j 1) 0)).toInt := by
    unfold ScatterDims.start
    rw [dif_pos (show (1 : Fin 2) ∈ [1] from List.mem_singleton.mpr rfl)]
    congr 2
    funext b; refine Fin.ext ?_
    match b with
    | ⟨0, _⟩ => rfl
    | ⟨1, _⟩ => rfl
  have hw0 : (⟨[0], [1], [1], 1, wf⟩ : ScatterDims ⟨2, ![B, V]⟩ ⟨2, ![N, 1]⟩ ⟨2, ![B, N]⟩).window j 0 = (j 0).val := by
    have hp : (0 : Fin 2) ∈ (⟨[0], [1], [1], 1, wf⟩ : ScatterDims ⟨2, ![B, V]⟩ ⟨2, ![N, 1]⟩ ⟨2, ![B, N]⟩).sKept := by
      show (0 : Fin 2) ∈ (List.finRange 2).filter (· ∉ [(1 : Fin 2)])
      decide
    unfold ScatterDims.window
    rw [dif_pos hp]
    rfl
  have hw1 : (⟨[0], [1], [1], 1, wf⟩ : ScatterDims ⟨2, ![B, V]⟩ ⟨2, ![N, 1]⟩ ⟨2, ![B, N]⟩).window j 1 = 0 := by
    have hn : (1 : Fin 2) ∉ (⟨[0], [1], [1], 1, wf⟩ : ScatterDims ⟨2, ![B, V]⟩ ⟨2, ![N, 1]⟩ ⟨2, ![B, N]⟩).sKept := by
      show (1 : Fin 2) ∉ (List.finRange 2).filter (· ∉ [(1 : Fin 2)])
      decide
    unfold ScatterDims.window
    rw [dif_neg hn]
  constructor
  · intro h
    have h0 := h 0
    have h1 := h 1
    rw [hs0, hw0] at h0
    rw [hs1, hw1] at h1
    refine ⟨by omega, by omega⟩
  · rintro ⟨h0, h1⟩
    have k0 : ((i 0).val : Int) = (⟨[0], [1], [1], 1, wf⟩ : ScatterDims ⟨2, ![B, V]⟩ ⟨2, ![N, 1]⟩ ⟨2, ![B, N]⟩).start j idx 0
        + (⟨[0], [1], [1], 1, wf⟩ : ScatterDims ⟨2, ![B, V]⟩ ⟨2, ![N, 1]⟩ ⟨2, ![B, N]⟩).window j 0 := by
      rw [hs0, hw0]; omega
    have k1 : ((i 1).val : Int) = (⟨[0], [1], [1], 1, wf⟩ : ScatterDims ⟨2, ![B, V]⟩ ⟨2, ![N, 1]⟩ ⟨2, ![B, N]⟩).start j idx 1
        + (⟨[0], [1], [1], 1, wf⟩ : ScatterDims ⟨2, ![B, V]⟩ ⟨2, ![N, 1]⟩ ⟨2, ![B, N]⟩).window j 1 := by
      rw [hs1, hw1]; omega
    intro a
    match a with
    | ⟨0, _⟩ => exact k0
    | ⟨1, _⟩ => exact k1

/-- The amount a scatter along rows adds to result element i: the sum, over the update positions (b, q), of the
    updates whose row b is i's row and whose index entry q, read as a signed integer, is i's column. -/
def rowSum {B V N w : Nat} (idx : IVec ⟨2, ![N, 1]⟩ w) (upd : (⟨2, ![B, N]⟩ : Shape).Idx → EReal)
    (i : (⟨2, ![B, V]⟩ : Shape).Idx) : EReal :=
  ∑ b : Fin B, ∑ q : Fin N,
    if (i 0).val = b.val ∧ ((i 1).val : Int) = (idx (ix2 q 0)).toInt then upd (ix2 b q) else 0

/-- An accumulating scatter along rows, read at one result element: the operand's element plus rowSum. -/
theorem hostScatterAdd_rows_apply {B V N w : Nat}
    (d : ScatterDims ⟨2, ![B, V]⟩ ⟨2, ![N, 1]⟩ ⟨2, ![B, N]⟩)
    (hu : d.updateWindowDims = [0]) (hi : d.insertedWindowDims = [1])
    (hs : d.scatterDimsToOperandDims = [1]) (hv : d.indexVectorDim = 1)
    (x : (⟨2, ![B, V]⟩ : Shape).Idx → EReal) (idx : IVec ⟨2, ![N, 1]⟩ w)
    (upd : (⟨2, ![B, N]⟩ : Shape).Idx → EReal) (i : (⟨2, ![B, V]⟩ : Shape).Idx) :
    Ideal.hostScatterAdd d x idx upd i = x i + rowSum idx upd i := by
  show x i + _ = x i + _
  congr 1
  unfold rowSum
  rw [Finset.sum_filter, sum_idx2]
  refine Finset.sum_congr rfl fun b _ => Finset.sum_congr rfl fun q _ => ?_
  exact if_congr (resultIdx?_rows d hu hi hs hv idx (ix2 b q) i) rfl rfl

/-- The long axis of extent 3N as N groups of three: (p, k) goes to 3p + k. -/
def interleave3 {N N3 : Nat} (h3 : N3 = 3 * N) : Fin N × Fin 3 ≃ Fin N3 where
  toFun x := ⟨3 * x.1.val + x.2.val, by omega⟩
  invFun q := (⟨q.val / 3, by omega⟩, ⟨q.val % 3, by omega⟩)
  left_inv x := by
    obtain ⟨p, k⟩ := x
    refine Prod.ext (Fin.ext ?_) (Fin.ext ?_)
    · show (3 * p.val + k.val) / 3 = p.val
      omega
    · show (3 * p.val + k.val) % 3 = k.val
      omega
  right_inv q := by
    refine Fin.ext ?_
    show 3 * (q.val / 3) + q.val % 3 = q.val
    omega

/-- The row sum of three interleaved index and update arrays is the sum of the three row sums. -/
theorem rowSum_interleave3 {B V N N3 w : Nat} (h3 : N3 = 3 * N)
    (I : IVec ⟨2, ![N3, 1]⟩ w) (U : (⟨2, ![B, N3]⟩ : Shape).Idx → EReal)
    (Ik : Fin 3 → IVec ⟨2, ![N, 1]⟩ w) (Uk : Fin 3 → (⟨2, ![B, N]⟩ : Shape).Idx → EReal)
    (hI : ∀ (p : Fin N) (k : Fin 3), I (ix2 (⟨3 * p.val + k.val, by omega⟩ : Fin N3) 0) = Ik k (ix2 p 0))
    (hU : ∀ (b : Fin B) (p : Fin N) (k : Fin 3),
      U (ix2 b (⟨3 * p.val + k.val, by omega⟩ : Fin N3)) = Uk k (ix2 b p))
    (i : (⟨2, ![B, V]⟩ : Shape).Idx) :
    rowSum I U i = rowSum (Ik 0) (Uk 0) i + rowSum (Ik 1) (Uk 1) i + rowSum (Ik 2) (Uk 2) i := by
  unfold rowSum
  simp only [← Finset.sum_add_distrib]
  refine Finset.sum_congr rfl fun b _ => ?_
  rw [← Equiv.sum_comp (interleave3 h3), Fintype.sum_prod_type]
  refine Finset.sum_congr rfl fun p _ => ?_
  rw [Fin.sum_univ_three]
  have hI' : ∀ k : Fin 3, I (ix2 (interleave3 h3 (p, k)) 0) = Ik k (ix2 p 0) := fun k => hI p k
  have hU' : ∀ k : Fin 3, U (ix2 b (interleave3 h3 (p, k))) = Uk k (ix2 b p) := fun k => hU b p k
  rw [hI' 0, hI' 1, hI' 2, hU' 0, hU' 1, hU' 2]

/-- ONE accumulating scatter along rows of three interleaved index and update arrays is the three scatters one after
    the other: position 3p + k of the long axis holds entry p of the k-th index array and column p of the k-th update
    array. Extended-real addition is commutative and associative, so nothing is asked of the values. -/
theorem hostScatterAdd_interleave3 {B V N N3 w : Nat} (h3 : N3 = 3 * N)
    (d1 : ScatterDims ⟨2, ![B, V]⟩ ⟨2, ![N, 1]⟩ ⟨2, ![B, N]⟩)
    (d3 : ScatterDims ⟨2, ![B, V]⟩ ⟨2, ![N3, 1]⟩ ⟨2, ![B, N3]⟩)
    (hd1u : d1.updateWindowDims = [0]) (hd1i : d1.insertedWindowDims = [1])
    (hd1s : d1.scatterDimsToOperandDims = [1]) (hd1v : d1.indexVectorDim = 1)
    (hd3u : d3.updateWindowDims = [0]) (hd3i : d3.insertedWindowDims = [1])
    (hd3s : d3.scatterDimsToOperandDims = [1]) (hd3v : d3.indexVectorDim = 1)
    (I : IVec ⟨2, ![N3, 1]⟩ w) (U : (⟨2, ![B, N3]⟩ : Shape).Idx → EReal)
    (Ik : Fin 3 → IVec ⟨2, ![N, 1]⟩ w) (Uk : Fin 3 → (⟨2, ![B, N]⟩ : Shape).Idx → EReal)
    (hI : ∀ (p : Fin N) (k : Fin 3), I (ix2 (⟨3 * p.val + k.val, by omega⟩ : Fin N3) 0) = Ik k (ix2 p 0))
    (hU : ∀ (b : Fin B) (p : Fin N) (k : Fin 3),
      U (ix2 b (⟨3 * p.val + k.val, by omega⟩ : Fin N3)) = Uk k (ix2 b p))
    (z : (⟨2, ![B, V]⟩ : Shape).Idx → EReal) :
    Ideal.hostScatterAdd d3 z I U =
      Ideal.hostScatterAdd d1 (Ideal.hostScatterAdd d1 (Ideal.hostScatterAdd d1 z (Ik 0) (Uk 0)) (Ik 1) (Uk 1))
        (Ik 2) (Uk 2) := by
  funext i
  rw [hostScatterAdd_rows_apply d3 hd3u hd3i hd3s hd3v, hostScatterAdd_rows_apply d1 hd1u hd1i hd1s hd1v,
    hostScatterAdd_rows_apply d1 hd1u hd1i hd1s hd1v, hostScatterAdd_rows_apply d1 hd1u hd1i hd1s hd1v,
    rowSum_interleave3 h3 I U Ik Uk hI hU i]
  simp only [add_assoc]

/-- The same with the three index arrays and the three update arrays named one by one: positions 3p, 3p + 1 and
    3p + 2 of the long axis hold entry p (column p) of the first, the second and the third. -/
theorem hostScatterAdd_interleave3_each {B V N N3 w : Nat} (h3 : N3 = 3 * N)
    (d1 : ScatterDims ⟨2, ![B, V]⟩ ⟨2, ![N, 1]⟩ ⟨2, ![B, N]⟩)
    (d3 : ScatterDims ⟨2, ![B, V]⟩ ⟨2, ![N3, 1]⟩ ⟨2, ![B, N3]⟩)
    (hd1u : d1.updateWindowDims = [0]) (hd1i : d1.insertedWindowDims = [1])
    (hd1s : d1.scatterDimsToOperandDims = [1]) (hd1v : d1.indexVectorDim = 1)
    (hd3u : d3.updateWindowDims = [0]) (hd3i : d3.insertedWindowDims = [1])
    (hd3s : d3.scatterDimsToOperandDims = [1]) (hd3v : d3.indexVectorDim = 1)
    (I : IVec ⟨2, ![N3, 1]⟩ w) (U : (⟨2, ![B, N3]⟩ : Shape).Idx → EReal)
    (I0 I1 I2 : IVec ⟨2, ![N, 1]⟩ w) (U0 U1 U2 : (⟨2, ![B, N]⟩ : Shape).Idx → EReal)
    (hI0 : ∀ p : Fin N, I (ix2 (⟨3 * p.val, by omega⟩ : Fin N3) 0) = I0 (ix2 p 0))
    (hI1 : ∀ p : Fin N, I (ix2 (⟨3 * p.val + 1, by omega⟩ : Fin N3) 0) = I1 (ix2 p 0))
    (hI2 : ∀ p : Fin N, I (ix2 (⟨3 * p.val + 2, by omega⟩ : Fin N3) 0) = I2 (ix2 p 0))
    (hU0 : ∀ (b : Fin B) (p : Fin N), U (ix2 b (⟨3 * p.val, by omega⟩ : Fin N3)) = U0 (ix2 b p))
    (hU1 : ∀ (b : Fin B) (p : Fin N), U (ix2 b (⟨3 * p.val + 1, by omega⟩ : Fin N3)) = U1 (ix2 b p))
    (hU2 : ∀ (b : Fin B) (p : Fin N), U (ix2 b (⟨3 * p.val + 2, by omega⟩ : Fin N3)) = U2 (ix2 b p))
    (z : (⟨2, ![B, V]⟩ : Shape).Idx → EReal) :
    Ideal.hostScatterAdd d3 z I U =
      Ideal.hostScatterAdd d1 (Ideal.hostScatterAdd d1 (Ideal.hostScatterAdd d1 z I0 U0) I1 U1) I2 U2 :=
  hostScatterAdd_interleave3 h3 d1 d3 hd1u hd1i hd1s hd1v hd3u hd3i hd3s hd3v I U ![I0, I1, I2] ![U0, U1, U2]
    (fun p k => match k with
      | ⟨0, _⟩ => hI0 p
      | ⟨1, _⟩ => hI1 p
      | ⟨2, _⟩ => hI2 p)
    (fun b p k => match k with
      | ⟨0, _⟩ => hU0 b p
      | ⟨1, _⟩ => hU1 b p
      | ⟨2, _⟩ => hU2 b p) z

/-- The interleaving theorem at the extents 8, 6890, 1048576 and 3145728 = 3 · 1048576, the three index arrays and
    the three update arrays given as families over k. -/
theorem hostScatterAdd_interleave3_lit {w : Nat}
    (d1 : ScatterDims ⟨2, ![8, 6890]⟩ ⟨2, ![1048576, 1]⟩ ⟨2, ![8, 1048576]⟩)
    (d3 : ScatterDims ⟨2, ![8, 6890]⟩ ⟨2, ![3145728, 1]⟩ ⟨2, ![8, 3145728]⟩)
    (hd1u : d1.updateWindowDims = [0]) (hd1i : d1.insertedWindowDims = [1])
    (hd1s : d1.scatterDimsToOperandDims = [1]) (hd1v : d1.indexVectorDim = 1)
    (hd3u : d3.updateWindowDims = [0]) (hd3i : d3.insertedWindowDims = [1])
    (hd3s : d3.scatterDimsToOperandDims = [1]) (hd3v : d3.indexVectorDim = 1)
    (I : IVec ⟨2, ![3145728, 1]⟩ w) (U : (⟨2, ![8, 3145728]⟩ : Shape).Idx → EReal)
    (Ik : Fin 3 → IVec ⟨2, ![1048576, 1]⟩ w) (Uk : Fin 3 → (⟨2, ![8, 1048576]⟩ : Shape).Idx → EReal)
    (hI : ∀ (p : Fin 1048576) (k : Fin 3),
      I (ix2 (⟨3 * p.val + k.val, by omega⟩ : Fin 3145728) 0) = Ik k (ix2 p 0))
    (hU : ∀ (b : Fin 8) (p : Fin 1048576) (k : Fin 3),
      U (ix2 b (⟨3 * p.val + k.val, by omega⟩ : Fin 3145728)) = Uk k (ix2 b p))
    (z : (⟨2, ![8, 6890]⟩ : Shape).Idx → EReal) :
    Ideal.hostScatterAdd d3 z I U =
      Ideal.hostScatterAdd d1 (Ideal.hostScatterAdd d1 (Ideal.hostScatterAdd d1 z (Ik 0) (Uk 0)) (Ik 1) (Uk 1))
        (Ik 2) (Uk 2) :=
  hostScatterAdd_interleave3 (by norm_num) d1 d3 hd1u hd1i hd1s hd1v hd3u hd3i hd3s hd3v I U Ik Uk hI hU z

/-- The interleaving theorem at the extents 8, 6890, 1048576 and 3145728 = 3 · 1048576, the three index arrays and
    the three update arrays named one by one. -/
theorem hostScatterAdd_interleave3_each_lit {w : Nat}
    (d1 : ScatterDims ⟨2, ![8, 6890]⟩ ⟨2, ![1048576, 1]⟩ ⟨2, ![8, 1048576]⟩)
    (d3 : ScatterDims ⟨2, ![8, 6890]⟩ ⟨2, ![3145728, 1]⟩ ⟨2, ![8, 3145728]⟩)
    (hd1u : d1.updateWindowDims = [0]) (hd1i : d1.insertedWindowDims = [1])
    (hd1s : d1.scatterDimsToOperandDims = [1]) (hd1v : d1.indexVectorDim = 1)
    (hd3u : d3.updateWindowDims = [0]) (hd3i : d3.insertedWindowDims = [1])
    (hd3s : d3.scatterDimsToOperandDims = [1]) (hd3v : d3.indexVectorDim = 1)
    (I : IVec ⟨2, ![3145728, 1]⟩ w) (U : (⟨2, ![8, 3145728]⟩ : Shape).Idx → EReal)
    (I0 I1 I2 : IVec ⟨2, ![1048576, 1]⟩ w) (U0 U1 U2 : (⟨2, ![8, 1048576]⟩ : Shape).Idx → EReal)
    (hI0 : ∀ p : Fin 1048576, I (ix2 (⟨3 * p.val, by omega⟩ : Fin 3145728) 0) = I0 (ix2 p 0))
    (hI1 : ∀ p : Fin 1048576, I (ix2 (⟨3 * p.val + 1, by omega⟩ : Fin 3145728) 0) = I1 (ix2 p 0))
    (hI2 : ∀ p : Fin 1048576, I (ix2 (⟨3 * p.val + 2, by omega⟩ : Fin 3145728) 0) = I2 (ix2 p 0))
    (hU0 : ∀ (b : Fin 8) (p : Fin 1048576), U (ix2 b (⟨3 * p.val, by omega⟩ : Fin 3145728)) = U0 (ix2 b p))
    (hU1 : ∀ (b : Fin 8) (p : Fin 1048576), U (ix2 b (⟨3 * p.val + 1, by omega⟩ : Fin 3145728)) = U1 (ix2 b p))
    (hU2 : ∀ (b : Fin 8) (p : Fin 1048576), U (ix2 b (⟨3 * p.val + 2, by omega⟩ : Fin 3145728)) = U2 (ix2 b p))
    (z : (⟨2, ![8, 6890]⟩ : Shape).Idx → EReal) :
    Ideal.hostScatterAdd d3 z I U =
      Ideal.hostScatterAdd d1 (Ideal.hostScatterAdd d1 (Ideal.hostScatterAdd d1 z I0 U0) I1 U1) I2 U2 :=
  hostScatterAdd_interleave3_each (by norm_num) d1 d3 hd1u hd1i hd1s hd1v hd3u hd3i hd3s hd3v I U I0 I1 I2 U0 U1 U2
    hI0 hI1 hI2 hU0 hU1 hU2 z

end Cert.Lib.ScatterSplit
-- ==== Proof.LibRowGather.lean ====
/-
  THE ROW GATHER READ AT AN INDEX. What `X[idx]` of a matrix `X : [N, C]` at an integer vector `idx : [E]`
  lowers to is `stablehlo.gather` with offset_dims `[1]`, collapsed_slice_dims `[0]`, start_index_map `[0]`,
  index_vector_dim `1` and slice_sizes `[1, C]` over the indices reshaped to `[E, 1]`: one whole row of the operand per
  start index. This file names those dimension numbers (`rowDims`) and proves the one fact a value proof needs
  (`gather_rows_apply`): result element `(t, q)` is the operand's element in column `q` of the row `idx[t, 0]`, that
  start index read as a signed integer and clamped into `[0, N − 1]`, as StableHLO's gather clamps every start index.
  On the row axis the slice has size 1, the axis is collapsed, and the start index map names it; on the column axis the
  start is 0 and the result's offset coordinate is the column. It follows `gather_take_apply` (the rank-1 operand) step by step.
-/
import Idealize.ShloMosaic.Lib.ValueIdx

noncomputable section

namespace Idealize.ShloMosaic.ValueIdx

open Idealize.ShloMosaic

section Rows
variable {α : Type}

/-- The row gather's dimension numbers for an operand `[N, C]`, start indices `[E, 1]` and result `[E, C]`; their
    conditions `wf` are decided on a program's literal shapes. -/
abbrev rowDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(t, q)`: column `q` of the operand's row `idx[t, 0]`, the start index read signed and
    clamped into `[0, N − 1]`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (t : Fin E) (q : Fin C) :
    Host.gather (rowDims N E C wf) x idx (ix2 t q)
      = x (ix2 ⟨min (idx (ix2 t ⟨0, Nat.one_pos⟩)).toInt.toNat (N - 1), by omega⟩ q) := by
  unfold Host.gather
  congr 1
  funext a
  refine Fin.ext ?_
  show (rowDims N E C wf).start (ix2 t q) idx a + (rowDims N E C wf).batchCoord (ix2 t q) a
      + (rowDims N E C wf).offCoord (ix2 t q) a = _
  rw [GatherDims.batchCoord_eq_zero _ _ _ List.not_mem_nil]
  simp only [Nat.add_zero]
  match a with
  | ⟨0, _⟩ =>
    -- the row axis: collapsed, so no offset; named by the start index map, so the clamped start index
    show (rowDims N E C wf).start (ix2 t q) idx (0 : Fin 2) + (rowDims N E C wf).offCoord (ix2 t q) (0 : Fin 2)
      = min (idx (ix2 t ⟨0, Nat.one_pos⟩)).toInt.toNat (N - 1)
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 t q) ⟨List.idxOf (0 : Fin 2) (rowDims N E C wf).startIndexMap,
        List.idxOf_lt_length_iff.2 (List.mem_singleton.mpr rfl)⟩ = ix2 t ⟨0, Nat.one_pos⟩ := by
      funext b; refine Fin.ext ?_
      match b with
      | ⟨0, _⟩ => rfl
      | ⟨1, _⟩ => rfl
    rw [hsi]
    rfl
  | ⟨1, _⟩ =>
    -- the column axis: not in the start index map, so the start is 0; the offset is the result's column
    show (rowDims N E C wf).start (ix2 t q) idx (1 : Fin 2) + (rowDims N E C wf).offCoord (ix2 t q) (1 : Fin 2) = q.val
    unfold GatherDims.start
    rw [dif_neg (show (1 : Fin 2) ∉ (rowDims N E C wf).startIndexMap from
      fun h => absurd (congrArg Fin.val (List.mem_singleton.mp h)) Nat.one_ne_zero)]
    rw [Nat.zero_add]
    rfl

end Rows

end Idealize.ShloMosaic.ValueIdx

end
-- ==== Proof.LibSegmentSum.lean ====
/-
  A SEGMENT SUM READ AT AN INDEX (at the ideal instance).

  What jax.ops.segment_sum(T[row] * wt[:, None], seg, num_segments = V) lowers to is: a row gather of a table
  T : [E, C] at K start indices (one whole row per index, the index read signed and clamped into [0, E − 1]), an
  elementwise product with a [K, C] array that holds weight wt k on all of row k, and an accumulating scatter of the
  K rows into a [V, C] operand along axis 0: row k is added to the operand's row seg k, and dropped when seg k, read
  signed, is outside [0, V). The extended reals' addition is commutative and associative, so the result at (n, c) is
  the operand's element plus the sum, over the k whose segment index is n, of T[clamp (row k), c] · wt k — one column
  c of the table at a time, whatever C is.

  The statements: the landing condition of a scatter along axis 0 in coordinates (resultIdx?_axis0), that scatter read
  at one element (scatterAdd_axis0_apply), the sum named (segAcc) and the composite (segmentSum_apply).
-/
import Idealize.ShloMosaic.Lib.ValueIdx
import proofs.«158890_j44117904065324_2_alg».proof.Proof.LibScatterSplit
import proofs.«158890_j44117904065324_2_alg».proof.Proof.LibRowGather

noncomputable section

open scoped BigOperators

namespace Cert.Lib.SegmentSum

open Idealize.ShloMosaic Idealize.ShloMosaic.ValueIdx Cert.Lib.ScatterSplit

/-- A scatter along axis 0 (update window axis 1, inserted operand axis 0, the one start component going to operand
    axis 0, the index vector on axis 1 of a [K, 1] index array): update position (k, c) lands on result element
    (n, c') exactly when c' = c and n is entry k of the index array read as a signed integer. -/
theorem resultIdx?_axis0 {V K C w : Nat}
    (d : ScatterDims ⟨2, ![V, C]⟩ ⟨2, ![K, 1]⟩ ⟨2, ![K, C]⟩)
    (hu : d.updateWindowDims = [1]) (hi : d.insertedWindowDims = [0])
    (hs : d.scatterDimsToOperandDims = [0]) (hv : d.indexVectorDim = 1)
    (idx : IVec ⟨2, ![K, 1]⟩ w) (j : (⟨2, ![K, C]⟩ : Shape).Idx) (i : (⟨2, ![V, C]⟩ : Shape).Idx) :
    d.resultIdx? j idx = some i ↔
      ((i 0).val : Int) = (idx (ix2 (j 0) ⟨0, Nat.one_pos⟩)).toInt ∧ (i 1).val = (j 1).val := by
  obtain ⟨uw, iw, sd, iv, wf⟩ := d
  simp only at hu hi hs hv
  subst hu hi hs hv
  rw [resultIdx?_eq_some_iff]
  have hs0 : (⟨[1], [0], [0], 1, wf⟩ : ScatterDims ⟨2, ![V, C]⟩ ⟨2, ![K, 1]⟩ ⟨2, ![K, C]⟩).start j idx 0
      = (idx (ix2 (j 0) ⟨0, Nat.one_pos⟩)).toInt := by
    unfold ScatterDims.start
    rw [dif_pos (show (0 : Fin 2) ∈ [0] from List.mem_singleton.mpr rfl)]
    congr 2
    funext b; refine Fin.ext ?_
    match b with
    | ⟨0, _⟩ => rfl
    | ⟨1, _⟩ => rfl
  have hs1 : (⟨[1], [0], [0], 1, wf⟩ : ScatterDims ⟨2, ![V, C]⟩ ⟨2, ![K, 1]⟩ ⟨2, ![K, C]⟩).start j idx 1 = 0 := by
    unfold ScatterDims.start
    rw [dif_neg (show (1 : Fin 2) ∉ [0] by decide)]
  have hw0 : (⟨[1], [0], [0], 1, wf⟩ : ScatterDims ⟨2, ![V, C]⟩ ⟨2, ![K, 1]⟩ ⟨2, ![K, C]⟩).window j 0 = 0 := by
    have hn : (0 : Fin 2) ∉ (⟨[1], [0], [0], 1, wf⟩ : ScatterDims ⟨2, ![V, C]⟩ ⟨2, ![K, 1]⟩ ⟨2, ![K, C]⟩).sKept := by
      show (0 : Fin 2) ∉ (List.finRange 2).filter (· ∉ [(0 : Fin 2)])
      decide
    unfold ScatterDims.window
    rw [dif_neg hn]
  have hw1 : (⟨[1], [0], [0], 1, wf⟩ : ScatterDims ⟨2, ![V, C]⟩ ⟨2, ![K, 1]⟩ ⟨2, ![K, C]⟩).window j 1 = (j 1).val := by
    have hp : (1 : Fin 2) ∈ (⟨[1], [0], [0], 1, wf⟩ : ScatterDims ⟨2, ![V, C]⟩ ⟨2, ![K, 1]⟩ ⟨2, ![K, C]⟩).sKept := by
      show (1 : Fin 2) ∈ (List.finRange 2).filter (· ∉ [(0 : Fin 2)])
      decide
    unfold ScatterDims.window
    rw [dif_pos hp]
    rfl
  constructor
  · intro h
    have h0 := h 0
    have h1 := h 1
    rw [hs0, hw0] at h0
    rw [hs1, hw1] at h1
    refine ⟨by omega, by omega⟩
  · rintro ⟨h0, h1⟩
    have k0 : ((i 0).val : Int) = (⟨[1], [0], [0], 1, wf⟩ : ScatterDims ⟨2, ![V, C]⟩ ⟨2, ![K, 1]⟩ ⟨2, ![K, C]⟩).start j idx 0
        + (⟨[1], [0], [0], 1, wf⟩ : ScatterDims ⟨2, ![V, C]⟩ ⟨2, ![K, 1]⟩ ⟨2, ![K, C]⟩).window j 0 := by
      rw [hs0, hw0]; omega
    have k1 : ((i 1).val : Int) = (⟨[1], [0], [0], 1, wf⟩ : ScatterDims ⟨2, ![V, C]⟩ ⟨2, ![K, 1]⟩ ⟨2, ![K, C]⟩).start j idx 1
        + (⟨[1], [0], [0], 1, wf⟩ : ScatterDims ⟨2, ![V, C]⟩ ⟨2, ![K, 1]⟩ ⟨2, ![K, C]⟩).window j 1 := by
      rw [hs1, hw1]; omega
    intro a
    match a with
    | ⟨0, _⟩ => exact k0
    | ⟨1, _⟩ => exact k1

/-- An accumulating scatter along axis 0 read at (n, c): the operand's element plus the sum of column c of the update
    rows whose index entry, read as a signed integer, is n. -/
theorem scatterAdd_axis0_apply {V K C w : Nat}
    (d : ScatterDims ⟨2, ![V, C]⟩ ⟨2, ![K, 1]⟩ ⟨2, ![K, C]⟩)
    (hu : d.updateWindowDims = [1]) (hi : d.insertedWindowDims = [0])
    (hs : d.scatterDimsToOperandDims = [0]) (hv : d.indexVectorDim = 1)
    (x : (⟨2, ![V, C]⟩ : Shape).Idx → EReal) (idx : IVec ⟨2, ![K, 1]⟩ w)
    (upd : (⟨2, ![K, C]⟩ : Shape).Idx → EReal) (n : Fin V) (c : Fin C) :
    Ideal.hostScatterAdd d x idx upd (ix2 n c)
      = x (ix2 n c) + ∑ k : Fin K, if (n.val : Int) = (idx (ix2 k ⟨0, Nat.one_pos⟩)).toInt then upd (ix2 k c) else 0 := by
  show x (ix2 n c) + _ = x (ix2 n c) + _
  congr 1
  rw [Finset.sum_filter, sum_idx2]
  refine Finset.sum_congr rfl fun k _ => ?_
  rw [Finset.sum_eq_single c]
  · exact if_congr ((resultIdx?_axis0 d hu hi hs hv idx (ix2 k c) (ix2 n c)).trans
      ⟨fun h => h.1, fun h => ⟨h, rfl⟩⟩) rfl rfl
  · intro c' _ hne
    rw [if_neg]
    intro h
    exact hne (Fin.ext ((resultIdx?_axis0 d hu hi hs hv idx (ix2 k c') (ix2 n c)).mp h).2.symm)
  · intro h
    exact absurd (Finset.mem_univ c) h

/-- What a segment sum holds at segment n, for one column of the table given as a function col of the row: the start
    value z plus the sum, over the k whose segment entry read signed is n, of col at the row named by k's start index
    (read signed, clamped into [0, E − 1]) times the weight of k. -/
def segAcc {E K V w w' : Nat} (hE : 0 < E) (z : EReal) (s : Fin K → BitVec w) (r : Fin K → BitVec w')
    (wt : Fin K → EReal) (col : Fin E → EReal) (n : Fin V) : EReal :=
  z + ∑ k : Fin K, if (n.val : Int) = (s k).toInt then col ⟨min (r k).toInt.toNat (E - 1), by omega⟩ * wt k else 0

/-- THE SEGMENT SUM READ AT (n, c): the operand's element plus the sum, over the k whose segment entry read signed is
    n, of column c of the table's row (start index of k read signed and clamped into [0, E − 1]) times the weight
    of k. The index arrays are read through their one column (hseg, hrow), the weights through their rows (hW). -/
theorem segmentSum_apply {E K V C w w' : Nat} (hE : 0 < E)
    (d : ScatterDims ⟨2, ![V, C]⟩ ⟨2, ![K, 1]⟩ ⟨2, ![K, C]⟩)
    (hu : d.updateWindowDims = [1]) (hi : d.insertedWindowDims = [0])
    (hs : d.scatterDimsToOperandDims = [0]) (hv : d.indexVectorDim = 1)
    (wf : GatherDims.WF ⟨2, ![E, C]⟩ ⟨2, ![K, 1]⟩ ⟨2, ![K, C]⟩ [1] [0] [] [0] [] 1 ![1, C])
    (z : FVec Ideal ⟨2, ![V, C]⟩ .f32) (seg : IVec ⟨2, ![K, 1]⟩ w) (row : IVec ⟨2, ![K, 1]⟩ w')
    (T : FVec Ideal ⟨2, ![E, C]⟩ .f32) (W : FVec Ideal ⟨2, ![K, C]⟩ .f32)
    (s : Fin K → BitVec w) (r : Fin K → BitVec w') (wt : Fin K → EReal)
    (hseg : ∀ k, seg (ix2 k ⟨0, Nat.one_pos⟩) = s k) (hrow : ∀ k, row (ix2 k ⟨0, Nat.one_pos⟩) = r k)
    (hW : ∀ k c, W (ix2 k c) = wt k) (n : Fin V) (c : Fin C) :
    Host.scatterAdd (F := Ideal) d z seg (mulf (Host.gather (rowDims E K C wf) T row) W) (ix2 n c)
      = segAcc hE (z (ix2 n c)) s r wt (fun e => T (ix2 e c)) n := by
  unfold segAcc
  refine (scatterAdd_axis0_apply d hu hi hs hv z seg _ n c).trans ?_
  refine congrArg (z (ix2 n c) + ·) (Finset.sum_congr rfl fun k _ => ?_)
  rw [hseg k, mulf_apply, gather_rows_apply hE wf T row k c, hW k c]
  simp only [hrow k]

end Cert.Lib.SegmentSum

end
-- ==== Proof.SeqSpec.lean ====
/-
  What both programs compute, element by element.

  With X : [100000, 64] the node features, R : [100000, 4] the mask columns per edge, H : [100000, 64] the edge
  features, and per nonzero k a weight wt k, a segment entry seg k and a row entry row k, the result at (n, r, f) is
    for r < 3 :  0 + the sum, over the k with seg k = n, of R[e_k, r] · H[e_k, f] · wt k,  e_k = row k clamped into range,
    for r = 3 :  X[n, f].
-/
import proofs.«158890_j44117904065324_2_alg».proof.Proof.LibSegmentSum

noncomputable section

namespace Cert.SeqSpec

open Idealize.ShloMosaic Idealize.ShloMosaic.ValueIdx Cert.Lib.SegmentSum

/-- The result at (n, r, f). -/
def seqAt (X : (⟨2, ![100000, 64]⟩ : Shape).Idx → EReal) (R : (⟨2, ![100000, 4]⟩ : Shape).Idx → EReal)
    (H : (⟨2, ![100000, 64]⟩ : Shape).Idx → EReal) (wt : Fin 800000 → EReal) (seg row : Fin 800000 → BitVec 32)
    (n : Fin 100000) (r : Fin 4) (f : Fin 64) : EReal :=
  if r.val < 3 then
    segAcc (E := 100000) (V := 100000) (by decide) (Ideal.ofBits .f32 0x00000000#32) seg row wt
      (fun e => R (ix2 e r) * H (ix2 e f)) n
  else X (ix2 n f)

end Cert.SeqSpec

end
-- ==== Proof.KernelValue.lean ====
/-
  The kernel program's result, element by element.

  With W the outer product the region leaves (W[e, 64 r + f] = M[e, r] · H[e, f], M the first three mask columns),
  the lines after the region run the segment sum over W, recast [100000, 192] as [100000, 3, 64] and append x as
  slot 3 of the middle axis. So for r < 3 element (n, r, f) is the segment sum of column 64 r + f of W, which is
  the column e ↦ R[e, r] · H[e, f]; for r = 3 it is x[n, f].
-/
import proofs.«158890_j44117904065324_2_alg».proof.Proof.KernelHost
import proofs.«158890_j44117904065324_2_alg».proof.Proof.OuterBlock
import proofs.«158890_j44117904065324_2_alg».proof.Proof.SeqSpec
import Idealize.ShloMosaic.Lib.Pipeline.Value

set_option maxRecDepth 16384

noncomputable section

namespace Cert.KernelIdeal.KernelValue

open Idealize.ShloMosaic Idealize.ShloMosaic.ValueIdx
open Cert.KernelIdeal Cert.KernelIdeal.Gen Cert.KernelIdeal.Outer Cert.KernelIdeal.HostValue Cert.Lib.SegmentSum Cert.SeqSpec

/-- The outer product at (e, 64 r + f). -/
theorem outer_apply (M : S100000x3.Idx → EReal) (H : S100000x64.Idx → EReal) (e : Fin 100000) (r : Fin 3) (f : Fin 64) :
    outer M H (ix2 e ⟨r.val * 64 + f.val, by have := r.isLt; have := f.isLt; omega⟩) = M (ix2 e r) * H (ix2 e f) := by
  have hr : r.val < 3 := r.isLt
  have hf : f.val < 64 := f.isLt
  unfold outer
  refine congrArg₂ (· * ·) (congrArg M (congrArg (ix2 e) (Fin.ext ?_))) (congrArg H (congrArg (ix2 e) (Fin.ext ?_)))
  · show (r.val * 64 + f.val) / 64 = r.val; omega
  · show (r.val * 64 + f.val) % 64 = f.val; omega

variable (x0 : FVec Ideal S100000x64 .f32) (x2 : FVec Ideal S800000 .f32) (x4 x5 : IVec S800000 32)
  (R : FVec Ideal S100000x4 .f32) (H : FVec Ideal S100000x64 .f32)

/-- The kernel program's result at (n, r, f), for the region's output the outer product of the first three columns
    of R and H. -/
theorem result_apply (n : Fin 100000) (r : Fin 4) (f : Fin 64) :
    tail (outer (extractStridedSlice S100000x3 ![0, 0] R slices_S100000x4_S100000x3_0_0) H) x0 x2 x4 x5 (ix3 n r f)
      = seqAt x0 R H (fun k => x2 (ix1 k)) (fun k => x4 (ix1 k))
          (fun k => wrap x5 (ix1 k)) n r f := by
  have hr4 : r.val < 4 := r.isLt
  have hf : f.val < 64 := f.isLt
  have hn : n.val < 100000 := n.isLt
  unfold tail seqAt
  by_cases hr : r.val < 3
  · rw [if_pos hr]
    refine (concatenate_pair_apply_left (t := S100000x4x64) (s₁ := S100000x3x64) (s₂ := S100000x1x64) (1 : Fin 3) _ _
      concatenates_S100000x3x64_S100000x1x64_S100000x4x64_d1
      (ix3 n r f) rfl (ix3 n (⟨r.val, hr⟩ : Fin 3) f) (fun b => match b with
        | ⟨0, _⟩ => rfl
        | ⟨1, _⟩ => rfl
        | ⟨2, _⟩ => rfl)).trans ?_
    refine (shapeCast_apply _ shapeCasts_S100000x192_S100000x3x64 (ix3 n (⟨r.val, hr⟩ : Fin 3) f)
      (ix2 n ⟨r.val * 64 + f.val, by omega⟩)
      (by rewrite [Shape.rowMajor_val_two, Shape.rowMajor_val_three]
          show n.val * 192 + (r.val * 64 + f.val) = (n.val * 3 + r.val) * 64 + f.val; omega)).trans ?_
    refine (segmentSum_apply (E := 100000) (by decide) scatter_S100000x192_S800000x1_S800000x192_1_0_0_1 rfl rfl rfl rfl
      gather_S100000x192_S800000x1_S800000x192_1_0_n_n_0_1_1192_wf
      (broadcastInDim S100000x192 ![] bcast_S_S100000x192 (constant (F := Ideal) S_ .f32 0x00000000#32))
      (broadcastInDim S800000x1 ![0] bcast_S800000_S800000x1_0 x4)
      (broadcastInDim S800000x1 ![0] bcast_S800000_S800000x1_0 (wrap x5))
      (outer (extractStridedSlice S100000x3 ![0, 0] R slices_S100000x4_S100000x3_0_0) H)
      (broadcastInDim S800000x192 ![0, 1] bcast_S800000x1_S800000x192_0_1
        (broadcastInDim S800000x1 ![0] bcast_S800000_S800000x1_0 x2))
      (fun k => x4 (ix1 k)) (fun k => wrap x5 (ix1 k)) (fun k => x2 (ix1 k))
      (fun k => broadcastInDim_apply _ bcast_S800000_S800000x1_0 x4 (ix2 k ⟨0, Nat.one_pos⟩) (ix1 k) (fun a => match a with
        | ⟨0, _⟩ => by show k.val = if (800000 : Nat) = 1 then 0 else k.val; rw [if_neg (by decide)]))
      (fun k => broadcastInDim_apply _ bcast_S800000_S800000x1_0 (wrap x5) (ix2 k ⟨0, Nat.one_pos⟩) (ix1 k) (fun a => match a with
        | ⟨0, _⟩ => by show k.val = if (800000 : Nat) = 1 then 0 else k.val; rw [if_neg (by decide)]))
      (fun k c => (broadcastInDim_apply _ bcast_S800000x1_S800000x192_0_1 _ (ix2 k c) (ix2 k ⟨0, Nat.one_pos⟩) (fun a => match a with
          | ⟨0, _⟩ => by show k.val = if (800000 : Nat) = 1 then 0 else k.val; rw [if_neg (by decide)]
          | ⟨1, _⟩ => by show 0 = if (1 : Nat) = 1 then 0 else c.val; rw [if_pos rfl])).trans
        (broadcastInDim_apply _ bcast_S800000_S800000x1_0 x2 (ix2 k ⟨0, Nat.one_pos⟩) (ix1 k) (fun a => match a with
          | ⟨0, _⟩ => by show k.val = if (800000 : Nat) = 1 then 0 else k.val; rw [if_neg (by decide)])))
      n ⟨r.val * 64 + f.val, by omega⟩).trans ?_
    have hz : broadcastInDim S100000x192 ![] bcast_S_S100000x192 (constant (F := Ideal) S_ .f32 0x00000000#32)
        (ix2 n ⟨r.val * 64 + f.val, by omega⟩) = Ideal.ofBits .f32 0x00000000#32 :=
      broadcastInDim_apply _ bcast_S_S100000x192 _ _ ix0 (fun a => a.elim0)
    rw [hz]
    refine congrArg (fun col => segAcc (E := 100000) (V := 100000) (by decide) (Ideal.ofBits .f32 0x00000000#32)
      (fun k => x4 (ix1 k)) (fun k => wrap x5 (ix1 k)) (fun k => x2 (ix1 k)) col n)
      (funext fun e => ?_)
    refine (outer_apply _ H e ⟨r.val, hr⟩ f).trans ?_
    refine congrArg (· * H (ix2 e f)) ?_
    exact extractStridedSlice_apply ![0, 0] R slices_S100000x4_S100000x3_0_0 (ix2 e ⟨r.val, hr⟩) (ix2 e r) (fun a => match a with
      | ⟨0, _⟩ => by show e.val = 0 + e.val; omega
      | ⟨1, _⟩ => by show r.val = 0 + r.val; omega)
  · rw [if_neg hr]
    refine (concatenate_pair_apply_right (t := S100000x4x64) (s₁ := S100000x3x64) (s₂ := S100000x1x64) (1 : Fin 3) _ _
      concatenates_S100000x3x64_S100000x1x64_S100000x4x64_d1
      (ix3 n r f) rfl rfl (ix3 n (⟨0, Nat.one_pos⟩ : Fin 1) f)
      (fun b hb => match b, hb with
        | ⟨0, _⟩, _ => rfl
        | ⟨1, _⟩, hb => absurd rfl hb
        | ⟨2, _⟩, _ => rfl)
      (by show 0 + 3 = r.val; omega)).trans ?_
    exact broadcastInDim_apply _ bcast_S100000x64_S100000x1x64_0_2 x0 (ix3 n (⟨0, Nat.one_pos⟩ : Fin 1) f) (ix2 n f) (fun a => match a with
      | ⟨0, _⟩ => by show n.val = if (100000 : Nat) = 1 then 0 else n.val; rw [if_neg (by decide)]
      | ⟨1, _⟩ => by show f.val = if (64 : Nat) = 1 then 0 else f.val; rw [if_neg (by decide)])

end Cert.KernelIdeal.KernelValue

end
-- ==== Proof.LibScatterAt.lean ====
/-
  A host scatter with any body, read at one operand index.

  The scatter visits the update indices one after another. A visit whose landing index is `i` replaces the
  value held at `i` by the body applied to that value and the update's element; every other visit leaves
  the value at `i` alone. So the value at `i` after all visits is decided by the visits that land on `i`
  alone: when no update index lands on `i` it is the operand's element, and when exactly one does it is the
  body of the operand's element and that update's element — whatever the order of the visits, and for any
  body (an accumulating `add` as well as a replacing `set`).

  One family of instances is worked out: an update of shape `[A, B, C']` scattered into an operand of shape
  `[A, B, C]` (`C' ≤ C`) at the single scatter index `0`, which names the start on the last axis — jax's
  `x.at[..., :C'].add(u)`. Update `(p, q, k)` lands on operand `(p, q, k)`, so the result is the body of
  operand and update on the first `C'` positions of the last axis and the operand beyond them.
-/
import Idealize.ShloMosaic.PureOps.ShapeOps
import Idealize.ShloMosaic.Lib.ValueIdx

namespace Idealize.ShloMosaic

/-- A left fold of steps acting on functions, read at a point `i` that no step of the list changes, is the
    starting function at `i`. -/
theorem foldl_apply_of_untouched {β γ ι : Type} (g : (β → γ) → ι → (β → γ)) (i : β) (L : List ι)
    (h : ∀ (r : β → γ), ∀ n ∈ L, g r n i = r i) (r : β → γ) : L.foldl g r i = r i := by
  induction L generalizing r with
  | nil => rfl
  | cons a L ih =>
    rw [List.foldl_cons, ih (fun r n hn => h r n (List.mem_cons_of_mem _ hn)) (g r a),
      h r a (List.mem_cons_self ..)]

/-- A left fold of steps acting on functions, over a list without repeats, read at a point `i` that exactly
    one step `n₀` of the list changes — by `φ` of the value it finds there —, is `φ` of the starting value:
    the steps before `n₀` leave the value at `i` as it started, and so do the steps after it. -/
theorem foldl_apply_of_touched_once {β γ ι : Type} (g : (β → γ) → ι → (β → γ)) (i : β) (n₀ : ι) (φ : γ → γ)
    (hhit : ∀ r : β → γ, g r n₀ i = φ (r i)) (hmiss : ∀ (r : β → γ) (n : ι), n ≠ n₀ → g r n i = r i)
    (L : List ι) (hnd : L.Nodup) (hmem : n₀ ∈ L) (r : β → γ) : L.foldl g r i = φ (r i) := by
  induction L generalizing r with
  | nil => cases hmem
  | cons a L ih =>
    rw [List.foldl_cons]
    have hnd' := List.nodup_cons.1 hnd
    by_cases ha : a = n₀
    · subst ha
      rw [foldl_apply_of_untouched g i L (fun r n hn => hmiss r n (fun e => hnd'.1 (e ▸ hn))), hhit]
    · rw [ih hnd'.2 ((List.mem_cons.1 hmem).resolve_left (fun e => ha e.symm)), hmiss r a ha]

/-- A scatter read at an operand index `i` that NO update index lands on is the operand's element. -/
theorem Host.scatter_apply_of_none {α : Type} {s si u : Shape} {w : Nat} (d : ScatterDims s si u) (f : α → α → α)
    (x : s.Idx → α) (idx : IVec si w) (upd : u.Idx → α) (i : s.Idx)
    (hnone : ∀ j : u.Idx, d.resultIdx? j idx ≠ some i) :
    Host.scatter d f x idx upd i = x i := by
  unfold Host.scatter
  refine foldl_apply_of_untouched _ i _ (fun r n _ => ?_) x
  cases h : d.resultIdx? (u.rowMajor.symm n) idx with
  | none => rfl
  | some i0 =>
    have hi : i ≠ i0 := fun e => hnone _ (by rw [h, e])
    simp only [if_neg hi]

/-- A scatter read at an operand index `i` that EXACTLY ONE update index `j` lands on is the body applied to
    the operand's element and that update's element. -/
theorem Host.scatter_apply_of_unique {α : Type} {s si u : Shape} {w : Nat} (d : ScatterDims s si u) (f : α → α → α)
    (x : s.Idx → α) (idx : IVec si w) (upd : u.Idx → α) (j : u.Idx) (i : s.Idx)
    (hj : d.resultIdx? j idx = some i) (huniq : ∀ j' : u.Idx, d.resultIdx? j' idx = some i → j' = j) :
    Host.scatter d f x idx upd i = f (x i) (upd j) := by
  unfold Host.scatter
  refine foldl_apply_of_touched_once _ i (u.rowMajor j) (fun a => f a (upd j)) ?_ ?_ _
    (List.nodup_finRange _) (List.mem_finRange _) x
  · intro r
    simp only [Equiv.symm_apply_apply, hj, if_true]
  · intro r n hn
    have hne : d.resultIdx? (u.rowMajor.symm n) idx ≠ some i := fun h =>
      hn (by rw [← huniq _ h, Equiv.apply_symm_apply])
    cases h : d.resultIdx? (u.rowMajor.symm n) idx with
    | none => rfl
    | some i0 =>
      have hi : i ≠ i0 := fun e => hne (by rw [h, e])
      simp only [if_neg hi]

/-! ## An `[A, B, C']` update scattered at start `0` of the last axis of an `[A, B, C]` operand -/

section LastAxisPrefix
variable {α : Type} {A B C C' : Nat}

/-- The dimension numbers: all three update axes are window axes, no operand axis is inserted, and the one
    scalar scatter index is the start on operand axis 2. -/
abbrev scatterLastAxisDims (A B C C' : Nat)
    (hwf : ScatterDims.WF ⟨3, ![A, B, C]⟩ ⟨1, ![1]⟩ ⟨3, ![A, B, C']⟩ [0, 1, 2] [] [2] 0) :
    ScatterDims ⟨3, ![A, B, C]⟩ ⟨1, ![1]⟩ ⟨3, ![A, B, C']⟩ :=
  { updateWindowDims := [0, 1, 2], insertedWindowDims := [], scatterDimsToOperandDims := [2], indexVectorDim := 0, wf := hwf }

/-- With the scatter index `0` every window starts at `0` on every axis: axes 0 and 1 are not in the map,
    axis 2 reads the index. -/
theorem scatterLastAxisDims_start (hwf : ScatterDims.WF ⟨3, ![A, B, C]⟩ ⟨1, ![1]⟩ ⟨3, ![A, B, C']⟩ [0, 1, 2] [] [2] 0)
    (idx : IVec ⟨1, ![1]⟩ 32) (hidx : ∀ b, idx b = 0#32) (j : (⟨3, ![A, B, C']⟩ : Shape).Idx) (a : Fin 3) :
    (scatterLastAxisDims A B C C' hwf).start j idx a = 0 := by
  unfold ScatterDims.start
  split
  · rw [hidx]; rfl
  · rfl

/-- The window coordinate on each operand axis is the update index's coordinate on the same axis. -/
theorem scatterLastAxisDims_window (hwf : ScatterDims.WF ⟨3, ![A, B, C]⟩ ⟨1, ![1]⟩ ⟨3, ![A, B, C']⟩ [0, 1, 2] [] [2] 0)
    (j : (⟨3, ![A, B, C']⟩ : Shape).Idx) (a : Fin 3) :
    (scatterLastAxisDims A B C C' hwf).window j a = (j a).val := by
  match a with
  | ⟨0, _⟩ => rfl
  | ⟨1, _⟩ => rfl
  | ⟨2, _⟩ => rfl

/-- With the scatter index `0`, update index `(p, q, k)` lands on operand index `(p, q, k)`. -/
theorem scatterLastAxisDims_resultIdx (hC : C' ≤ C)
    (hwf : ScatterDims.WF ⟨3, ![A, B, C]⟩ ⟨1, ![1]⟩ ⟨3, ![A, B, C']⟩ [0, 1, 2] [] [2] 0)
    (idx : IVec ⟨1, ![1]⟩ 32) (hidx : ∀ b, idx b = 0#32) (j : (⟨3, ![A, B, C']⟩ : Shape).Idx) :
    (scatterLastAxisDims A B C C' hwf).resultIdx? j idx =
      some (ValueIdx.ix3 (j 0) (j 1) ⟨(j 2).val, lt_of_lt_of_le (show (j 2).val < C' from (j 2).isLt) hC⟩) := by
  have hs := scatterLastAxisDims_start (C := C) hwf idx hidx j
  have hw := scatterLastAxisDims_window (C := C) hwf j
  have h0 : (j 0).val < A := (j 0).isLt
  have h1 : (j 1).val < B := (j 1).isLt
  have h2 : (j 2).val < C' := (j 2).isLt
  have H : ∀ a : Fin 3, 0 ≤ (scatterLastAxisDims A B C C' hwf).start j idx a + (scatterLastAxisDims A B C C' hwf).window j a ∧
      (scatterLastAxisDims A B C C' hwf).start j idx a + (scatterLastAxisDims A B C C' hwf).window j a < (![A, B, C] a : Nat) := by
    intro a
    rw [hs, hw]
    match a with
    | ⟨0, _⟩ => exact ⟨by omega, by show (0 : Int) + ((j 0).val : Int) < (A : Int); omega⟩
    | ⟨1, _⟩ => exact ⟨by omega, by show (0 : Int) + ((j 1).val : Int) < (B : Int); omega⟩
    | ⟨2, _⟩ => exact ⟨by omega, by show (0 : Int) + ((j 2).val : Int) < (C : Int); omega⟩
  unfold ScatterDims.resultIdx?
  rw [dif_pos H]
  congr 1
  funext a
  apply Fin.ext
  show ((scatterLastAxisDims A B C C' hwf).start j idx a + (scatterLastAxisDims A B C C' hwf).window j a).toNat = _
  rw [hs, hw]
  match a with
  | ⟨0, _⟩ => show ((0 : Int) + ((j 0).val : Int)).toNat = (j 0).val; omega
  | ⟨1, _⟩ => show ((0 : Int) + ((j 1).val : Int)).toNat = (j 1).val; omega
  | ⟨2, _⟩ => show ((0 : Int) + ((j 2).val : Int)).toNat = (j 2).val; omega

/-- An `[A, B, C']` update scattered with body `f` at start `0` of the last axis of an `[A, B, C]` operand,
    read at `(p, q, k)`: the body of the operand's and the update's elements at `(p, q, k)` when `k < C'`. -/
theorem Host.scatter_lastAxis_prefix_apply_lt (hC : C' ≤ C)
    (hwf : ScatterDims.WF ⟨3, ![A, B, C]⟩ ⟨1, ![1]⟩ ⟨3, ![A, B, C']⟩ [0, 1, 2] [] [2] 0) (f : α → α → α)
    (x : (⟨3, ![A, B, C]⟩ : Shape).Idx → α) (idx : IVec ⟨1, ![1]⟩ 32) (hidx : ∀ b, idx b = 0#32)
    (upd : (⟨3, ![A, B, C']⟩ : Shape).Idx → α) (p : Fin A) (q : Fin B) (k : Fin C) (hk : k.val < C') :
    Host.scatter (scatterLastAxisDims A B C C' hwf) f x idx upd (ValueIdx.ix3 p q k)
      = f (x (ValueIdx.ix3 p q k)) (upd (ValueIdx.ix3 p q ⟨k.val, hk⟩)) := by
  refine Host.scatter_apply_of_unique (scatterLastAxisDims A B C C' hwf) f x idx upd (ValueIdx.ix3 p q ⟨k.val, hk⟩)
    (ValueIdx.ix3 p q k) ?_ ?_
  · rw [scatterLastAxisDims_resultIdx hC hwf idx hidx]
    rfl
  · intro j' hj'
    rw [scatterLastAxisDims_resultIdx hC hwf idx hidx] at hj'
    have e := Option.some.inj hj'
    have e0 : j' 0 = p := congrFun e (0 : Fin 3)
    have e1 : j' 1 = q := congrFun e (1 : Fin 3)
    have e2 : (j' 2).val = k.val := congrArg Fin.val (congrFun e (2 : Fin 3))
    funext a
    match a with
    | ⟨0, _⟩ => exact e0
    | ⟨1, _⟩ => exact e1
    | ⟨2, _⟩ => exact Fin.ext e2

/-- The same read at `(p, q, k)` with `C' ≤ k`: no update lands there, and the operand's element stays. -/
theorem Host.scatter_lastAxis_prefix_apply_ge (hC : C' ≤ C)
    (hwf : ScatterDims.WF ⟨3, ![A, B, C]⟩ ⟨1, ![1]⟩ ⟨3, ![A, B, C']⟩ [0, 1, 2] [] [2] 0) (f : α → α → α)
    (x : (⟨3, ![A, B, C]⟩ : Shape).Idx → α) (idx : IVec ⟨1, ![1]⟩ 32) (hidx : ∀ b, idx b = 0#32)
    (upd : (⟨3, ![A, B, C']⟩ : Shape).Idx → α) (p : Fin A) (q : Fin B) (k : Fin C) (hk : C' ≤ k.val) :
    Host.scatter (scatterLastAxisDims A B C C' hwf) f x idx upd (ValueIdx.ix3 p q k) = x (ValueIdx.ix3 p q k) := by
  refine Host.scatter_apply_of_none (scatterLastAxisDims A B C C' hwf) f x idx upd (ValueIdx.ix3 p q k) ?_
  intro j' hj'
  rw [scatterLastAxisDims_resultIdx hC hwf idx hidx] at hj'
  have e2 : (j' 2).val = k.val := congrArg Fin.val (congrFun (Option.some.inj hj') (2 : Fin 3))
  have h2 : (j' 2).val < C' := (j' 2).isLt
  omega

end LastAxisPrefix

end Idealize.ShloMosaic
-- ==== Proof.LibScatterMiddle.lean ====
/-
  A SCATTER INTO ONE POSITION OF THE MIDDLE AXIS OF A RANK-3 ARRAY, READ AT AN INDEX.

  What x.at[:, b, :].set(u) (or .add(u)) of x : [A, B, C] and u : [A, C] at one literal position b lowers to is a
  scatter with ONE scalar scatter index, both update axes window axes, operand axis 1 inserted and named by the index:
  update (n, c) lands on operand (n, b, c), where b is the scatter index read as a signed integer (and nowhere if b is
  outside [0, B)). So each operand element meets at most one update, whatever the order of the visits: at (n, r, c)
  the result is the body applied to the operand's element and u (n, c) when r is the scatter index, and the operand's
  element when it is not.

  The statements: the landing condition in coordinates (resultIdx?_middle) and the scatter read where the update
  lands (scatter_middle_apply_hit) and where none does (scatter_middle_apply_miss).
-/
import Idealize.ShloMosaic.Lib.ValueIdx
import proofs.«158890_j44117904065324_2_alg».proof.Proof.LibScatterSplit
import proofs.«158890_j44117904065324_2_alg».proof.Proof.LibScatterAt

noncomputable section

namespace Cert.Lib.ScatterMiddle

open Idealize.ShloMosaic Idealize.ShloMosaic.ValueIdx Cert.Lib.ScatterSplit

/-- Update position (n, c) lands on result element (n', r, c') exactly when n' = n, c' = c and r is the one scatter
    index read as a signed integer. -/
theorem resultIdx?_middle {A B C w : Nat}
    (d : ScatterDims ⟨3, ![A, B, C]⟩ ⟨1, ![1]⟩ ⟨2, ![A, C]⟩)
    (hu : d.updateWindowDims = [0, 1]) (hi : d.insertedWindowDims = [1])
    (hs : d.scatterDimsToOperandDims = [1]) (hv : d.indexVectorDim = 0)
    (idx : IVec ⟨1, ![1]⟩ w) (j : (⟨2, ![A, C]⟩ : Shape).Idx) (i : (⟨3, ![A, B, C]⟩ : Shape).Idx) :
    d.resultIdx? j idx = some i ↔
      (i 0).val = (j 0).val ∧ ((i 1).val : Int) = (idx (ix1 ⟨0, Nat.one_pos⟩)).toInt ∧ (i 2).val = (j 1).val := by
  obtain ⟨uw, iw, sd, iv, wf⟩ := d
  simp only at hu hi hs hv
  subst hu hi hs hv
  rw [resultIdx?_eq_some_iff]
  have hs0 : (⟨[0, 1], [1], [1], 0, wf⟩ : ScatterDims ⟨3, ![A, B, C]⟩ ⟨1, ![1]⟩ ⟨2, ![A, C]⟩).start j idx 0 = 0 := by
    unfold ScatterDims.start
    rw [dif_neg (show (0 : Fin 3) ∉ [1] by decide)]
  have hs1 : (⟨[0, 1], [1], [1], 0, wf⟩ : ScatterDims ⟨3, ![A, B, C]⟩ ⟨1, ![1]⟩ ⟨2, ![A, C]⟩).start j idx 1
      = (idx (ix1 ⟨0, Nat.one_pos⟩)).toInt := by
    unfold ScatterDims.start
    rw [dif_pos (show (1 : Fin 3) ∈ [1] from List.mem_singleton.mpr rfl)]
    congr 2
    funext b; refine Fin.ext ?_
    match b with
    | ⟨0, _⟩ => rfl
  have hs2 : (⟨[0, 1], [1], [1], 0, wf⟩ : ScatterDims ⟨3, ![A, B, C]⟩ ⟨1, ![1]⟩ ⟨2, ![A, C]⟩).start j idx 2 = 0 := by
    unfold ScatterDims.start
    rw [dif_neg (show (2 : Fin 3) ∉ [1] by decide)]
  have hw0 : (⟨[0, 1], [1], [1], 0, wf⟩ : ScatterDims ⟨3, ![A, B, C]⟩ ⟨1, ![1]⟩ ⟨2, ![A, C]⟩).window j 0 = (j 0).val := by
    have hp : (0 : Fin 3) ∈ (⟨[0, 1], [1], [1], 0, wf⟩ : ScatterDims ⟨3, ![A, B, C]⟩ ⟨1, ![1]⟩ ⟨2, ![A, C]⟩).sKept := by
      show (0 : Fin 3) ∈ (List.finRange 3).filter (· ∉ [(1 : Fin 3)])
      decide
    unfold ScatterDims.window
    rw [dif_pos hp]
    rfl
  have hw1 : (⟨[0, 1], [1], [1], 0, wf⟩ : ScatterDims ⟨3, ![A, B, C]⟩ ⟨1, ![1]⟩ ⟨2, ![A, C]⟩).window j 1 = 0 := by
    have hn : (1 : Fin 3) ∉ (⟨[0, 1], [1], [1], 0, wf⟩ : ScatterDims ⟨3, ![A, B, C]⟩ ⟨1, ![1]⟩ ⟨2, ![A, C]⟩).sKept := by
      show (1 : Fin 3) ∉ (List.finRange 3).filter (· ∉ [(1 : Fin 3)])
      decide
    unfold ScatterDims.window
    rw [dif_neg hn]
  have hw2 : (⟨[0, 1], [1], [1], 0, wf⟩ : ScatterDims ⟨3, ![A, B, C]⟩ ⟨1, ![1]⟩ ⟨2, ![A, C]⟩).window j 2 = (j 1).val := by
    have hp : (2 : Fin 3) ∈ (⟨[0, 1], [1], [1], 0, wf⟩ : ScatterDims ⟨3, ![A, B, C]⟩ ⟨1, ![1]⟩ ⟨2, ![A, C]⟩).sKept := by
      show (2 : Fin 3) ∈ (List.finRange 3).filter (· ∉ [(1 : Fin 3)])
      decide
    unfold ScatterDims.window
    rw [dif_pos hp]
    rfl
  constructor
  · intro h
    have h0 := h 0
    have h1 := h 1
    have h2 := h 2
    rw [hs0, hw0] at h0
    rw [hs1, hw1] at h1
    rw [hs2, hw2] at h2
    refine ⟨by omega, by omega, by omega⟩
  · rintro ⟨h0, h1, h2⟩
    have k0 : ((i 0).val : Int) = (⟨[0, 1], [1], [1], 0, wf⟩ : ScatterDims ⟨3, ![A, B, C]⟩ ⟨1, ![1]⟩ ⟨2, ![A, C]⟩).start j idx 0 + (⟨[0, 1], [1], [1], 0, wf⟩ : ScatterDims ⟨3, ![A, B, C]⟩ ⟨1, ![1]⟩ ⟨2, ![A, C]⟩).window j 0 := by
      rw [hs0, hw0]; omega
    have k1 : ((i 1).val : Int) = (⟨[0, 1], [1], [1], 0, wf⟩ : ScatterDims ⟨3, ![A, B, C]⟩ ⟨1, ![1]⟩ ⟨2, ![A, C]⟩).start j idx 1 + (⟨[0, 1], [1], [1], 0, wf⟩ : ScatterDims ⟨3, ![A, B, C]⟩ ⟨1, ![1]⟩ ⟨2, ![A, C]⟩).window j 1 := by
      rw [hs1, hw1]; omega
    have k2 : ((i 2).val : Int) = (⟨[0, 1], [1], [1], 0, wf⟩ : ScatterDims ⟨3, ![A, B, C]⟩ ⟨1, ![1]⟩ ⟨2, ![A, C]⟩).start j idx 2 + (⟨[0, 1], [1], [1], 0, wf⟩ : ScatterDims ⟨3, ![A, B, C]⟩ ⟨1, ![1]⟩ ⟨2, ![A, C]⟩).window j 2 := by
      rw [hs2, hw2]; omega
    intro a
    match a with
    | ⟨0, _⟩ => exact k0
    | ⟨1, _⟩ => exact k1
    | ⟨2, _⟩ => exact k2

/-- Read where the update lands: the body of the operand's element and the update's element at (n, c). -/
theorem scatter_middle_apply_hit {α : Type} {A B C w : Nat}
    (d : ScatterDims ⟨3, ![A, B, C]⟩ ⟨1, ![1]⟩ ⟨2, ![A, C]⟩)
    (hu : d.updateWindowDims = [0, 1]) (hi : d.insertedWindowDims = [1])
    (hs : d.scatterDimsToOperandDims = [1]) (hv : d.indexVectorDim = 0)
    (f : α → α → α) (x : (⟨3, ![A, B, C]⟩ : Shape).Idx → α) (idx : IVec ⟨1, ![1]⟩ w)
    (upd : (⟨2, ![A, C]⟩ : Shape).Idx → α) (n : Fin A) (b : Fin B) (c : Fin C)
    (hb : (b.val : Int) = (idx (ix1 ⟨0, Nat.one_pos⟩)).toInt) :
    Host.scatter d f x idx upd (ix3 n b c) = f (x (ix3 n b c)) (upd (ix2 n c)) := by
  refine Host.scatter_apply_of_unique d f x idx upd (ix2 n c) (ix3 n b c) ?_ ?_
  · exact (resultIdx?_middle d hu hi hs hv idx (ix2 n c) (ix3 n b c)).mpr ⟨rfl, hb, rfl⟩
  · intro j' hj'
    obtain ⟨e0, -, e2⟩ := (resultIdx?_middle d hu hi hs hv idx j' (ix3 n b c)).mp hj'
    funext a
    match a with
    | ⟨0, _⟩ => exact Fin.ext e0.symm
    | ⟨1, _⟩ => exact Fin.ext e2.symm

/-- Read at a middle position that is not the scatter index: no update lands there, the operand's element stays. -/
theorem scatter_middle_apply_miss {α : Type} {A B C w : Nat}
    (d : ScatterDims ⟨3, ![A, B, C]⟩ ⟨1, ![1]⟩ ⟨2, ![A, C]⟩)
    (hu : d.updateWindowDims = [0, 1]) (hi : d.insertedWindowDims = [1])
    (hs : d.scatterDimsToOperandDims = [1]) (hv : d.indexVectorDim = 0)
    (f : α → α → α) (x : (⟨3, ![A, B, C]⟩ : Shape).Idx → α) (idx : IVec ⟨1, ![1]⟩ w)
    (upd : (⟨2, ![A, C]⟩ : Shape).Idx → α) (n : Fin A) (r : Fin B) (c : Fin C)
    (hr : (r.val : Int) ≠ (idx (ix1 ⟨0, Nat.one_pos⟩)).toInt) :
    Host.scatter d f x idx upd (ix3 n r c) = x (ix3 n r c) := by
  refine Host.scatter_apply_of_none d f x idx upd (ix3 n r c) ?_
  intro j' hj'
  exact hr ((resultIdx?_middle d hu hi hs hv idx j' (ix3 n r c)).mp hj').2.1

end Cert.Lib.ScatterMiddle

end
-- ==== Proof.RefValue.lean ====
/-
  The reference's result, element by element.

  The reference forms the edge features H and the four mask columns R, multiplies them into a [100000, 4, 64] array,
  flattens it to [100000, 256], runs the segment sum over it (gather rows, weight, scatter-add), recasts the result
  as [100000, 4, 64] and overwrites slot 3 of the middle axis with x. Element (e, 64 r + f) of the flattened
  product is R[e, r] · H[e, f], so for r < 3 element (n, r, f) of the result is the segment sum of that column, and
  for r = 3 it is x[n, f].
-/
import proofs.«158890_j44117904065324_2_alg».proof.Proof.Gen.ReferenceIdeal.Read
import proofs.«158890_j44117904065324_2_alg».proof.Proof.SeqSpec
import proofs.«158890_j44117904065324_2_alg».proof.Proof.LibScatterMiddle

set_option maxRecDepth 16384

noncomputable section

namespace Cert.ReferenceIdeal.RefValue

open Idealize.ShloMosaic Idealize.ShloMosaic.ValueIdx
open Cert.ReferenceIdeal Cert.ReferenceIdeal.Gen Cert.ReferenceIdeal.Read Cert.Lib.SegmentSum Cert.Lib.ScatterMiddle Cert.SeqSpec

variable (x0 : FVec Ideal S100000x64 .f32) (x1 : FVec Ideal S4x100000 .f32) (x2 : FVec Ideal S800000 .f32)
  (x3 : IVec S100000 32) (x4 x5 : IVec S800000 32)

/-- The flattened product at (e, 64 r + f) is column r of the masks times feature f of the edge features, at edge e. -/
theorem flat_apply (e : Fin 100000) (r : Fin 4) (f : Fin 64) :
    val_main_v26 (F := Ideal) x0 x1 x2 x3 x4 x5 (ix2 e ⟨r.val * 64 + f.val, by have := r.isLt; have := f.isLt; omega⟩)
      = val_main_v20 (F := Ideal) x1 x3 (ix2 e r) * val_main_v12 (F := Ideal) x0 x2 x4 x5 (ix2 e f) := by
  have hr : r.val < 4 := r.isLt
  have hf : f.val < 64 := f.isLt
  have he : e.val < 100000 := e.isLt
  rw [val_main_v26_apply]
  have h26 : idx_main_v26 (ix2 e ⟨r.val * 64 + f.val, by omega⟩) = ix3 e r f := funext fun a => Fin.ext (match a with
    | ⟨0, _⟩ => by show (e.val * 256 + (r.val * 64 + f.val)) / 256 = e.val; omega
    | ⟨1, _⟩ => by show (e.val * 256 + (r.val * 64 + f.val)) / 64 % 4 = r.val; omega
    | ⟨2, _⟩ => by show (e.val * 256 + (r.val * 64 + f.val)) % 64 = f.val; omega)
  rw [h26, val_main_v25_apply, val_main_v23_apply, val_main_v21_apply, val_main_v24_apply, val_main_v22_apply]
  have h23 : idx_main_v21 (idx_main_v23 (ix3 e r f)) = ix2 e r := funext fun a => Fin.ext (match a with
    | ⟨0, _⟩ => rfl
    | ⟨1, _⟩ => rfl)
  have h24 : idx_main_v22 (idx_main_v24 (ix3 e r f)) = ix2 e f := funext fun a => Fin.ext (match a with
    | ⟨0, _⟩ => rfl
    | ⟨1, _⟩ => rfl)
  rw [h23, h24]
  rfl

/-- The reference's result at (n, r, f). -/
theorem result_apply (n : Fin 100000) (r : Fin 4) (f : Fin 64) :
    val_main_v42 (F := Ideal) x0 x1 x2 x3 x4 x5 (ix3 n r f)
      = seqAt x0 (val_main_v20 (F := Ideal) x1 x3) (val_main_v12 (F := Ideal) x0 x2 x4 x5) (fun k => x2 (ix1 k))
          (fun k => x4 (ix1 k)) (fun k => val_main_v31 (F := Ideal) x5 (ix1 k)) n r f := by
  have hr4 : r.val < 4 := r.isLt
  have hf : f.val < 64 := f.isLt
  have hn : n.val < 100000 := n.isLt
  have h3 : (val_main_v41 (F := Ideal) (ix1 ⟨0, Nat.one_pos⟩)).toInt = 3 := by
    rw [val_main_v41_apply, val_main_c_6_apply]; decide
  unfold val_main_v42 seqAt
  by_cases hr : r.val < 3
  · rw [if_pos hr]
    refine (scatter_middle_apply_miss scatter_S100000x4x64_S1_S100000x64_01_1_1_0 rfl rfl rfl rfl (fun _ b => b)
      (val_main_v40 (F := Ideal) x0 x1 x2 x3 x4 x5) (val_main_v41 (F := Ideal)) x0 n r f (by rw [h3]; omega)).trans ?_
    rw [val_main_v40_apply]
    have h40 : idx_main_v40 (ix3 n r f) = ix2 n ⟨r.val * 64 + f.val, by omega⟩ := funext fun a => Fin.ext (match a with
      | ⟨0, _⟩ => by show ((n.val * 4 + r.val) * 64 + f.val) / 256 = n.val; omega
      | ⟨1, _⟩ => by show ((n.val * 4 + r.val) * 64 + f.val) % 256 = r.val * 64 + f.val; omega)
    rw [h40]
    unfold val_main_v39
    refine (segmentSum_apply (E := 100000) (by decide) scatter_S100000x256_S800000x1_S800000x256_1_0_0_1 rfl rfl rfl rfl
      gather_S100000x256_S800000x1_S800000x256_1_0_n_n_0_1_1256_wf (val_main_v37 (F := Ideal)) (val_main_v38 (F := Ideal) x4)
      (val_main_v32 (F := Ideal) x5) (val_main_v26 (F := Ideal) x0 x1 x2 x3 x4 x5) (val_main_v35 (F := Ideal) x2)
      (fun k => x4 (ix1 k)) (fun k => val_main_v31 (F := Ideal) x5 (ix1 k)) (fun k => x2 (ix1 k))
      (fun k => (val_main_v38_apply (F := Ideal) x4 (ix2 k ⟨0, Nat.one_pos⟩)).trans
        (congrArg x4 (funext fun a => match a with | ⟨0, _⟩ => rfl)))
      (fun k => (val_main_v32_apply (F := Ideal) x5 (ix2 k ⟨0, Nat.one_pos⟩)).trans
        (congrArg (val_main_v31 (F := Ideal) x5) (funext fun a => match a with | ⟨0, _⟩ => rfl)))
      (fun k c => (val_main_v35_apply (F := Ideal) x2 (ix2 k c)).trans
        ((val_main_v34_apply (F := Ideal) x2 (idx_main_v35 (ix2 k c))).trans
          (congrArg x2 (funext fun a => match a with | ⟨0, _⟩ => rfl))))
      n ⟨r.val * 64 + f.val, by omega⟩).trans ?_
    rw [val_main_v37_apply, val_main_cst_5_apply]
    refine congrArg (fun col => segAcc (E := 100000) (V := 100000) (by decide) (Ideal.ofBits .f32 0x00000000#32)
      (fun k => x4 (ix1 k)) (fun k => val_main_v31 (F := Ideal) x5 (ix1 k)) (fun k => x2 (ix1 k)) col n) (funext fun e => ?_)
    exact flat_apply x0 x1 x2 x3 x4 x5 e r f
  · rw [if_neg hr]
    exact scatter_middle_apply_hit scatter_S100000x4x64_S1_S100000x64_01_1_1_0 rfl rfl rfl rfl (fun _ b => b)
      (val_main_v40 (F := Ideal) x0 x1 x2 x3 x4 x5) (val_main_v41 (F := Ideal)) x0 n r f (by rw [h3]; omega)

end Cert.ReferenceIdeal.RefValue

end
-- ==== Proof.lean ====
/-
  The kernel and its reference compute one function of the arguments, at the extended reals.

  Both programs form, by the same host operations, the edge features H (a segment sum of the weighted rows of x) and
  the mask columns R per edge. The reference multiplies all four columns of R into H, flattens, runs a second segment
  sum and overwrites slot 3 of the result with x. The kernel multiplies only the first three columns (its region: a
  blocked outer product), runs the same segment sum on the narrower array and appends x as slot 3. Element (n, r, f)
  of either result is, for r < 3, zero plus the sum over the nonzeros k of segment n of R[e_k, r] · H[e_k, f] · wt k,
  and for r = 3 it is x[n, f]: the sums are the same sums term by term, so no law of arithmetic beyond reading each
  side at an index is used, and the precondition is never opened.

  The three frames are the generated frame runs (the reference's is its generated run with the result dropped), and
  the idealization rewrote nothing.
-/
import proofs.«158890_j44117904065324_2_alg».proof.Defs
import proofs.«158890_j44117904065324_2_alg».proof.Proof.Gen.Kernel
import proofs.«158890_j44117904065324_2_alg».proof.Proof.Gen.Kernel.Skeleton
import proofs.«158890_j44117904065324_2_alg».proof.Proof.Gen.Kernel.Launch
import proofs.«158890_j44117904065324_2_alg».proof.Proof.Gen.Kernel.Points
import proofs.«158890_j44117904065324_2_alg».proof.Proof.Gen.Kernel.Frame
import proofs.«158890_j44117904065324_2_alg».proof.Proof.Gen.KernelIdeal
import proofs.«158890_j44117904065324_2_alg».proof.Proof.Gen.KernelIdeal.Skeleton
import proofs.«158890_j44117904065324_2_alg».proof.Proof.Gen.KernelIdeal.Launch
import proofs.«158890_j44117904065324_2_alg».proof.Proof.Gen.KernelIdeal.Points
import proofs.«158890_j44117904065324_2_alg».proof.Proof.Gen.KernelIdeal.Frame
import proofs.«158890_j44117904065324_2_alg».proof.Proof.Gen.ReferenceIdeal
import proofs.«158890_j44117904065324_2_alg».proof.Proof.Gen.Pre_finite_inputs
import proofs.«158890_j44117904065324_2_alg».proof.Proof.Gen.ReferenceIdeal.Run
import proofs.«158890_j44117904065324_2_alg».proof.Proof.Gen.ReferenceIdeal.Read
import proofs.«158890_j44117904065324_2_alg».proof.Proof.KernelRun
import proofs.«158890_j44117904065324_2_alg».proof.Proof.KernelValue
import proofs.«158890_j44117904065324_2_alg».proof.Proof.RefValue
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The kernel's result term is the reference's, when the arrays the region finds are the reference's terms for the
    mask columns (their first three) and the edge features: index by index both are the same element of the
    specification. -/
theorem result_eq (x0 : FVec Ideal Cert.KernelIdeal.S100000x64 .f32) (x1 : FVec Ideal Cert.KernelIdeal.S4x100000 .f32)
    (x2 : FVec Ideal Cert.KernelIdeal.S800000 .f32) (x3 : IVec Cert.KernelIdeal.S100000 32)
    (x4 x5 : IVec Cert.KernelIdeal.S800000 32)
    (M : Cert.KernelIdeal.S100000x3.Idx → EReal) (H : Cert.KernelIdeal.S100000x64.Idx → EReal)
    (hM : M = extractStridedSlice Cert.KernelIdeal.S100000x3 ![0, 0] (Cert.ReferenceIdeal.Read.val_main_v20 (F := Ideal) x1 x3)
      Cert.KernelIdeal.Gen.slices_S100000x4_S100000x3_0_0)
    (hH : H = Cert.ReferenceIdeal.Read.val_main_v12 (F := Ideal) x0 x2 x4 x5) :
    Cert.KernelIdeal.HostValue.tail (Cert.KernelIdeal.Outer.outer M H) x0 x2 x4 x5
      = Cert.ReferenceIdeal.Read.val_main_v42 (F := Ideal) x0 x1 x2 x3 x4 x5 := by
  subst hM hH
  funext i
  obtain ⟨n, r, f, rfl⟩ : ∃ (n : Fin 100000) (r : Fin 4) (f : Fin 64), i = ix3 n r f :=
    ⟨i 0, i 1, i 2, eq_ix3 (n0 := 100000) (n1 := 4) (n2 := 64) i⟩
  refine (Cert.KernelIdeal.KernelValue.result_apply x0 x2 x4 x5 (Cert.ReferenceIdeal.Read.val_main_v20 (F := Ideal) x1 x3)
      (Cert.ReferenceIdeal.Read.val_main_v12 (F := Ideal) x0 x2 x4 x5) n r f).trans ?_
  rw [Cert.KernelIdeal.HostValue.wrap_eq x5]
  exact (Cert.ReferenceIdeal.RefValue.result_apply x0 x1 x2 x3 x4 x5 n r f).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the reference's result term of the (agreeing) arguments. -/
theorem algebraic : Cert.algebraic_KernelIdeal_ReferenceIdeal := by
  intro m ρ m' ρ' _ hagree
  refine ⟨fun c => Cert.ReferenceIdeal.Read.val_main_v42 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun _ h c => ⟨(h c).1.trans ?_, (h c).2⟩)
      (Cert.KernelIdeal.KernelRun.run m ρ)
    exact result_eq _ _ _ _ _ _ _ _ (Cert.KernelIdeal.HostValue.cols_eq m c) (Cert.KernelIdeal.HostValue.feat_eq m c)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
